-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x64 .f32) (main_arg7 : FVec F S64 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 154
  | .vmem => 50
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S100000, .f32⟩
  | 31 => ⟨S100000x1, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S100000x128, .f32⟩
  | 74 => ⟨S100000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S1600000, .f32⟩
  | 94 => ⟨S1600000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S1600000x128, .f32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S100000x128, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S1600000, .f32⟩
  | 8 => ⟨S1600000x1, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S1600000x64, .f32⟩
  | 19 => ⟨S1600000x64, .f32⟩
  | 20 => ⟨S_, .f32⟩
  | 21 => ⟨S100000x64, .f32⟩
  | 22 => ⟨S1600000x1, .i32⟩
  | 23 => ⟨S100000x64, .f32⟩
  | 24 => ⟨S1x64, .f32⟩
  | 25 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x1, .f32⟩
  | .local _ .vmem, ⟨46, _⟩ => ⟨S2000x1, .f32⟩
  | .local _ .vmem, ⟨47, _⟩ => ⟨S1x64, .f32⟩
  | .local _ .vmem, ⟨48, _⟩ => ⟨S2000x64, .f32⟩
  | .local _ .vmem, ⟨49, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_12 : Ref sig .tc := ⟨.hbm, 95, rfl⟩
abbrev main_v65 : Ref sig .tc := ⟨.hbm, 96, rfl⟩
abbrev main_v66 : Ref sig .tc := ⟨.hbm, 97, rfl⟩
abbrev main_c_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_17 : Ref sig .tc := ⟨.hbm, 126, rfl⟩
abbrev main_v91 : Ref sig .tc := ⟨.hbm, 127, rfl⟩
abbrev main_v92 : Ref sig .tc := ⟨.hbm, 128, rfl⟩
abbrev main_c_18 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_19 : Ref sig .tc := ⟨.hbm, 137, rfl⟩
abbrev main_v100 : Ref sig .tc := ⟨.hbm, 138, rfl⟩
abbrev main_v101 : Ref sig .tc := ⟨.hbm, 139, rfl⟩
abbrev main_c_20 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_21 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem4_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  broadcasts_S2000x1_S2000x64 : S2000x1.Broadcasts S2000x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S100000x128.size a
  hwx3_8 : ∀ i : grid3.Coords, EltTy.bits .f32 = 32 ∨ (Rect.block (s := S100000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S100000x64.size a
  hwx5_4 : ∀ i : grid5.Coords, EltTy.bits .f32 = 32 ∨ (Rect.block (s := S100000x64) S2000x64.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v80) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v81) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v82) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v82) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v111) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v112) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v113) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 203
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S100000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S100000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S1600000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S1600000x128, .f32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000, .f32⟩
  | 2 => ⟨S100000x1, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000x64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S1600000x1, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1600000x64, .f32⟩
  | 59 => ⟨S1600000x64, .f32⟩
  | 60 => ⟨S_, .f32⟩
  | 61 => ⟨S100000x64, .f32⟩
  | 62 => ⟨S1600000x1, .i32⟩
  | 63 => ⟨S100000x64, .f32⟩
  | 64 => ⟨S100000, .f32⟩
  | 65 => ⟨S100000x1, .f32⟩
  | 66 => ⟨S100000x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call0_cst : Ref sig .tc := ⟨.hbm, 90, rfl⟩
abbrev main_call0_v0 : Ref sig .tc := ⟨.hbm, 91, rfl⟩
abbrev main_v63 : Ref sig .tc := ⟨.hbm, 92, rfl⟩
abbrev main_v64 : Ref sig .tc := ⟨.hbm, 93, rfl⟩
abbrev main_c_9 : Ref sig .tc := ⟨.hbm, 94, rfl⟩
abbrev main_v65 : Ref sig .tc := ⟨.hbm, 95, rfl⟩
abbrev main_v66 : Ref sig .tc := ⟨.hbm, 96, rfl⟩
abbrev main_c_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_11 : Ref sig .tc := ⟨.hbm, 103, rfl⟩
abbrev main_v72 : Ref sig .tc := ⟨.hbm, 104, rfl⟩
abbrev main_v73 : Ref sig .tc := ⟨.hbm, 105, rfl⟩
abbrev main_c_12 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_13 : Ref sig .tc := ⟨.hbm, 114, rfl⟩
abbrev main_v81 : Ref sig .tc := ⟨.hbm, 115, rfl⟩
abbrev main_v82 : Ref sig .tc := ⟨.hbm, 116, rfl⟩
abbrev main_c_14 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_15 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_16 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_call1_cst : Ref sig .tc := ⟨.hbm, 153, rfl⟩
abbrev main_call1_v0 : Ref sig .tc := ⟨.hbm, 154, rfl⟩
abbrev main_v116 : Ref sig .tc := ⟨.hbm, 155, rfl⟩
abbrev main_v117 : Ref sig .tc := ⟨.hbm, 156, rfl⟩
abbrev main_c_17 : Ref sig .tc := ⟨.hbm, 157, rfl⟩
abbrev main_v118 : Ref sig .tc := ⟨.hbm, 158, rfl⟩
abbrev main_v119 : Ref sig .tc := ⟨.hbm, 159, rfl⟩
abbrev main_c_18 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_19 : Ref sig .tc := ⟨.hbm, 166, rfl⟩
abbrev main_v125 : Ref sig .tc := ⟨.hbm, 167, rfl⟩
abbrev main_v126 : Ref sig .tc := ⟨.hbm, 168, rfl⟩
abbrev main_c_20 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c_21 : Ref sig .tc := ⟨.hbm, 177, rfl⟩
abbrev main_v134 : Ref sig .tc := ⟨.hbm, 178, rfl⟩
abbrev main_v135 : Ref sig .tc := ⟨.hbm, 179, rfl⟩
abbrev main_c_22 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_23 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_call2_cst : Ref sig .tc := ⟨.hbm, 200, rfl⟩
abbrev main_call2_v0 : Ref sig .tc := ⟨.hbm, 201, rfl⟩
abbrev main_v154 : Ref sig .tc := ⟨.hbm, 202, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The kernel program is six row-blocked kernels among stretches of whole-array operations. Run from any memory it
  terminates, and here the run is stated with the RESULT array named: after the last kernel the result buffer holds
  what the fold of the segments over the launch memory leaves there (the last kernel's write-backs folded into its
  output array), and the sixteen argument arrays are as launched. The later modules read that fold down to one
  function of the arguments.
-/
import proofs.«103837_j2224793059852_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the segments' fold read at that buffer, and every
    argument array ends as launched. -/
theorem run_out : θ_run defs (onTc (τ := τ) (main (F := F))) ⟨m, fun _ => 0, ρ⟩ (fun r => ∀ c : Dev nD,
      r.2.mem ((c.tc : Thread nD τ).loc main_v113) = W10 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v113 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.Out

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.LibSoftLayout.lean ====
/-
  Matrices and vectors read at an entry, for any extents: a block of consecutive rows of a matrix; a transposed
  matrix; a row [1, b] laid along every row of [a, b]; a vector stood up as a row [1, b] or as a column [a, 1] by a
  change of shape; a matrix [a, b] read as [1, a, b] and back; the sum of a matrix's rows' entries (along the columns)
  and of its columns' entries (along the rows), and a row's maximum, each as a sum or a fold over one coordinate.
-/
import Idealize.ShloMosaic.Lib.Pipeline.Value
import Idealize.ShloMosaic.Lib.ValueIdx
import Idealize.ShloMosaic.PureOps.Ideal.Laws

noncomputable section

open scoped BigOperators

namespace SoftLayout

open Idealize.ShloMosaic Idealize.ShloMosaic.ValueIdx

variable {α : Type}

/-- Rows `off`, `off + 1`, … of a matrix: entry (r, q) of the piece is entry (off + r, q). -/
theorem rows_apply {n m c off : Nat} (h : (⟨2, ![n, c]⟩ : Shape).Slices ![off, 0] ⟨2, ![m, c]⟩)
    (v : (⟨2, ![n, c]⟩ : Shape).Idx → α) (r : Fin m) (q : Fin c) (hr : off + r.val < n) :
    extractStridedSlice ⟨2, ![m, c]⟩ ![off, 0] v h (ix2 r q) = v (ix2 ⟨off + r.val, hr⟩ q) :=
  extractStridedSlice_apply ![off, 0] v h (ix2 r q) (ix2 ⟨off + r.val, hr⟩ q) (fun a => match a with
    | ⟨0, _⟩ => rfl
    | ⟨1, _⟩ => (Nat.zero_add _).symm)

/-- A transposed matrix: entry (q, p) is entry (p, q). -/
theorem transpose_apply {a b : Nat} (h : (⟨2, ![a, b]⟩ : Shape).Transposes [1, 0] ⟨2, ![b, a]⟩)
    (v : (⟨2, ![a, b]⟩ : Shape).Idx → α) (q : Fin b) (p : Fin a) :
    transpose ⟨2, ![b, a]⟩ [1, 0] v h (ix2 q p) = v (ix2 p q) :=
  Idealize.ShloMosaic.transpose_apply [1, 0] v h (ix2 q p) (ix2 p q) (fun c => match c with
    | ⟨0, _⟩ => rfl
    | ⟨1, _⟩ => rfl)

/-- A row [1, b] laid along every row of [a, b]: entry (p, q) is entry (0, q). -/
theorem row_to_apply {a b : Nat} (h : (⟨2, ![1, b]⟩ : Shape).Broadcasts ⟨2, ![a, b]⟩)
    (v : (⟨2, ![1, b]⟩ : Shape).Idx → α) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A vector [b] stood up as a row [1, b] by a change of shape: entry (0, q) is entry q. -/
theorem vec_row_cast_apply {b : Nat} (h : (⟨1, ![b]⟩ : Shape).ShapeCasts ⟨2, ![1, b]⟩)
    (v : (⟨1, ![b]⟩ : Shape).Idx → α) (z : Fin 1) (q : Fin b) :
    shapeCast ⟨2, ![1, b]⟩ v h (ix2 z q) = v (ix1 q) := by
  refine shapeCast_apply v h (ix2 z q) (ix1 q) ?_
  rw [Shape.rowMajor_val_one, Shape.rowMajor_val_two]
  show q.val = z.val * b + q.val
  have := z.isLt
  have hz : z.val = 0 := by omega
  rw [hz]; omega

/-- A vector [a] stood up as a column [a, 1] by a change of shape: entry (p, 0) is entry p. -/
theorem vec_col_cast_apply {a : Nat} (h : (⟨1, ![a]⟩ : Shape).ShapeCasts ⟨2, ![a, 1]⟩)
    (v : (⟨1, ![a]⟩ : Shape).Idx → α) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- [1, a, b] read as the matrix [a, b]: entry (p, q) is entry (0, p, q). -/
theorem drop_lead_apply {a b : Nat} (h : (⟨3, ![1, a, b]⟩ : Shape).ShapeCasts ⟨2, ![a, b]⟩)
    (v : (⟨3, ![1, a, b]⟩ : Shape).Idx → α) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_two, Shape.rowMajor_val_three]
  show (0 * a + p.val) * b + q.val = p.val * b + q.val
  rw [Nat.zero_mul, Nat.zero_add]

/-- The matrix [a, b] read as [1, a, b]: entry (0, p, q) is entry (p, q). -/
theorem add_lead_apply {a b : Nat} (h : (⟨2, ![a, b]⟩ : Shape).ShapeCasts ⟨3, ![1, a, b]⟩)
    (v : (⟨2, ![a, b]⟩ : Shape).Idx → α) (z : Fin 1) (p : Fin a) (q : Fin b) :
    shapeCast ⟨3, ![1, a, b]⟩ v h (ix3 z p q) = v (ix2 p q) := by
  refine shapeCast_apply v h (ix3 z p q) (ix2 p q) ?_
  rw [Shape.rowMajor_val_two, Shape.rowMajor_val_three]
  show p.val * b + q.val = (z.val * a + p.val) * b + q.val
  have := z.isLt
  have hz : z.val = 0 := by omega
  rw [hz, Nat.zero_mul, Nat.zero_add]

/-- The index over row `p` with column coordinate `q` inserted. -/
theorem lift_row {a b : Nat} (h : (⟨2, ![a, b]⟩ : Shape).Reduces [1] ⟨1, ![a]⟩) (p : Fin a) (q : Fin b) :
    h.lift (ix1 p) q = ix2 p q :=
  funext fun c => match c with
    | ⟨0, _⟩ => Fin.ext rfl
    | ⟨1, _⟩ => Fin.ext rfl

/-- The index over column `q` with row coordinate `p` inserted. -/
theorem lift_col {a b : Nat} (h : (⟨2, ![a, b]⟩ : Shape).Reduces [0] ⟨1, ![b]⟩) (q : Fin b) (p : Fin a) :
    h.lift (ix1 q) p = ix2 p q :=
  funext fun c => match c with
    | ⟨0, _⟩ => Fin.ext rfl
    | ⟨1, _⟩ => Fin.ext rfl

/-- The sums of a matrix's rows: entry p is the sum over q of entry (p, q). -/
theorem rowsum_apply {a b : Nat} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ q : Fin b, v (ix2 p q) := by
  refine (Ideal.multiReduction_add_single v 0x00000000#32 h hφ hacc (ix1 p)).trans ?_
  exact Finset.sum_congr rfl fun q _ => congrArg v (lift_row h p q)

/-- The sums of a matrix's columns: entry q is the sum over p of entry (p, q). -/
theorem colsum_apply {a b : Nat} (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ p : Fin a, v (ix2 p q) := by
  refine (Ideal.multiReduction_add_single v 0x00000000#32 h hφ hacc (ix1 q)).trans ?_
  exact Finset.sum_congr rfl fun p _ => congrArg v (lift_col h q p)

/-- The maxima of a matrix's rows, from -∞: entry p is the fold of `max` over q of entry (p, q). -/
theorem rowmax_apply {a b : Nat} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun q => v (ix2 p q)) := by
  refine (Ideal.multiReduction_maximumf_single v 0xFF800000#32 h hφ hacc (ix1 p)).trans ?_
  exact congrArg (fun f => (Finset.univ : Finset (Fin b)).fold max (Ideal.ofBits .f32 0xFF800000#32) f)
    (funext fun q => congrArg v (lift_row h p q))

end SoftLayout

end
-- ==== Proof.LibRowBlocks.lean ====
/-
  Three bodies of row-blocked kernels read at an entry, on the extended reals, for any extents.
  A block of R rows of a matrix times a whole matrix, each rounded to a shorter format first (a change of format is the
  identity on the extended reals) and accumulated into zeros: entry (p, q) is the sum over the contracted coordinate of the
  products of the entries. A block plus a row laid along every row of it, then the maximum with a constant: entry (p, q)
  is max(x(p, q) + b(0, q), z). And the composite of the two — a product, a row added, the maximum with a constant, a second
  product, a second row added — entry by entry. Nothing of real arithmetic is used: each side is the same expression.
-/
import Idealize.ShloMosaic.Lib.Pipeline.Value
import Idealize.ShloMosaic.Lib.ValueIdx
import Idealize.ShloMosaic.PureOps.Ideal.Laws
import Idealize.ShloMosaic.Lib.KernelVsHost
import proofs.«103837_j2224793059852_1_alg».proof.Proof.LibRowOps
import proofs.«103837_j2224793059852_1_alg».proof.Proof.LibSoftLayout

noncomputable section

open scoped BigOperators

namespace RowBlocks

open Idealize.ShloMosaic Idealize.ShloMosaic.ValueIdx

/-- The product of an [M, K] matrix by a [K, N] matrix, entry by entry. -/
def prod {M K N : Nat} (A : FVec Ideal ⟨2, ![M, K]⟩ .f32) (B : FVec Ideal ⟨2, ![K, N]⟩ .f32) : FVec Ideal ⟨2, ![M, N]⟩ .f32 :=
  fun i => ∑ k : Fin K, A (ix2 (i 0) k) * B (ix2 k (i 1))

theorem prod_apply {M K N : Nat} (A : FVec Ideal ⟨2, ![M, K]⟩ .f32) (B : FVec Ideal ⟨2, ![K, N]⟩ .f32) (p : Fin M) (q : Fin N) :
    prod A B (ix2 p q) = ∑ k : Fin K, A (ix2 p k) * B (ix2 k q) := rfl

/-- A row added to every row of a matrix. -/
def addRow {M N : Nat} (A : FVec Ideal ⟨2, ![M, N]⟩ .f32) (b : FVec Ideal ⟨2, ![1, N]⟩ .f32) : FVec Ideal ⟨2, ![M, N]⟩ .f32 :=
  fun i => A i + b (ix2 (0 : Fin 1) (i 1))

theorem addRow_apply {M N : Nat} (A : FVec Ideal ⟨2, ![M, N]⟩ .f32) (b : FVec Ideal ⟨2, ![1, N]⟩ .f32) (p : Fin M) (q : Fin N) :
    addRow A b (ix2 p q) = A (ix2 p q) + b (ix2 (0 : Fin 1) q) := rfl

/-- The maximum of every entry with the value of a 32-bit word. -/
def maxWord {M N : Nat} (A : FVec Ideal ⟨2, ![M, N]⟩ .f32) (z : BitVec 32) : FVec Ideal ⟨2, ![M, N]⟩ .f32 :=
  fun i => max (A i) (Ideal.ofBits .f32 z)

theorem maxWord_apply {M N : Nat} (A : FVec Ideal ⟨2, ![M, N]⟩ .f32) (z : BitVec 32) (p : Fin M) (q : Fin N) :
    maxWord A z (ix2 p q) = max (A (ix2 p q)) (Ideal.ofBits .f32 z) := rfl

/-- A kernel's product of a block by a matrix, both rounded to a shorter format first, into a zero accumulator. -/
theorem matmul_trunc_apply {R K N : Nat} {ψ : FTy} (D : DotDims ⟨2, ![R, K]⟩ ⟨2, ![K, N]⟩ ⟨2, ![R, N]⟩) (hD : D = DotDims.plain R K N)
    (h : ψ.bits < FTy.f32.bits) (x : FVec Ideal ⟨2, ![R, K]⟩ .f32) (w : FVec Ideal ⟨2, ![K, N]⟩ .f32) (p : Fin R) (q : Fin N) :
    matmul D none (truncf ψ x h) (truncf ψ w h) (constant ⟨2, ![R, N]⟩ .f32 0x00000000#32) (ix2 p q)
      = ∑ k : Fin K, x (ix2 p k) * w (ix2 k q) :=
  (RowOps.matmul_apply D hD none (truncf ψ x h) (truncf ψ w h) p q).trans (Finset.sum_congr rfl fun _ _ => rfl)

/-- A kernel's `max(x + row, z)` on a block: the row is cast to itself, laid along every row, added, and the maximum with a splat taken. -/
theorem addRow_max_apply {R N : Nat} (z : BitVec 32) (hc1 : (⟨2, ![R, N]⟩ : Shape).ShapeCasts ⟨2, ![R, N]⟩)
    (hc2 : (⟨2, ![1, N]⟩ : Shape).ShapeCasts ⟨2, ![1, N]⟩) (hb : (⟨2, ![1, N]⟩ : Shape).Broadcasts ⟨2, ![R, N]⟩)
    (x : FVec Ideal ⟨2, ![R, N]⟩ .f32) (b : FVec Ideal ⟨2, ![1, N]⟩ .f32) (p : Fin R) (q : Fin N) :
    maximumf (addf (shapeCast ⟨2, ![R, N]⟩ x hc1) (broadcastTo ⟨2, ![R, N]⟩ (shapeCast ⟨2, ![1, N]⟩ b hc2) hb))
        (broadcast ⟨2, ![R, N]⟩ (Scalar.ofBits (F := Ideal) .f32 z)) (ix2 p q)
      = max (x (ix2 p q) + b (ix2 (0 : Fin 1) q)) (Ideal.ofBits .f32 z) := by
  show max (shapeCast ⟨2, ![R, N]⟩ x hc1 (ix2 p q) + broadcastTo ⟨2, ![R, N]⟩ (shapeCast ⟨2, ![1, N]⟩ b hc2) hb (ix2 p q)) _ = _
  rw [shapeCast_self, SoftLayout.row_to_apply, shapeCast_self]
  rfl

/-- A row laid along every row of a block and added, with no cast of the block: `y + row`. -/
theorem addRow_apply_kernel {R N : Nat} (hc2 : (⟨2, ![1, N]⟩ : Shape).ShapeCasts ⟨2, ![1, N]⟩)
    (hb : (⟨2, ![1, N]⟩ : Shape).Broadcasts ⟨2, ![R, N]⟩)
    (y : FVec Ideal ⟨2, ![R, N]⟩ .f32) (b : FVec Ideal ⟨2, ![1, N]⟩ .f32) (p : Fin R) (q : Fin N) :
    addf y (broadcastTo ⟨2, ![R, N]⟩ (shapeCast ⟨2, ![1, N]⟩ b hc2) hb) (ix2 p q) = y (ix2 p q) + b (ix2 (0 : Fin 1) q) := by
  show y (ix2 p q) + broadcastTo ⟨2, ![R, N]⟩ (shapeCast ⟨2, ![1, N]⟩ b hc2) hb (ix2 p q) = _
  rw [SoftLayout.row_to_apply, shapeCast_self]

/-- The same product when the block is first cast to its own shape. -/
theorem matmul_cast_trunc_apply {R K N : Nat} {ψ : FTy} (D : DotDims ⟨2, ![R, K]⟩ ⟨2, ![K, N]⟩ ⟨2, ![R, N]⟩) (hD : D = DotDims.plain R K N)
    (h : ψ.bits < FTy.f32.bits) (hc : (⟨2, ![R, K]⟩ : Shape).ShapeCasts ⟨2, ![R, K]⟩)
    (x : FVec Ideal ⟨2, ![R, K]⟩ .f32) (w : FVec Ideal ⟨2, ![K, N]⟩ .f32) (p : Fin R) (q : Fin N) :
    matmul D none (truncf ψ (shapeCast ⟨2, ![R, K]⟩ x hc) h) (truncf ψ w h) (constant ⟨2, ![R, N]⟩ .f32 0x00000000#32) (ix2 p q)
      = ∑ k : Fin K, x (ix2 p k) * w (ix2 k q) := by
  rw [shapeCast_self]
  exact matmul_trunc_apply D hD h x w p q

/-- The edge network's body on a block of rows: a product, a row added, the maximum with a word's value, a second
    product, a second row added — entry (p, q). -/
theorem edge_apply {R K1 K2 N : Nat} {ψ : FTy}
    (D1 : DotDims ⟨2, ![R, K1]⟩ ⟨2, ![K1, K2]⟩ ⟨2, ![R, K2]⟩) (hD1 : D1 = DotDims.plain R K1 K2)
    (D2 : DotDims ⟨2, ![R, K2]⟩ ⟨2, ![K2, N]⟩ ⟨2, ![R, N]⟩) (hD2 : D2 = DotDims.plain R K2 N)
    (h : ψ.bits < FTy.f32.bits) (z : BitVec 32)
    (hc0 : (⟨2, ![R, K1]⟩ : Shape).ShapeCasts ⟨2, ![R, K1]⟩)
    (hcb1 : (⟨2, ![1, K2]⟩ : Shape).ShapeCasts ⟨2, ![1, K2]⟩) (hbb1 : (⟨2, ![1, K2]⟩ : Shape).Broadcasts ⟨2, ![R, K2]⟩)
    (hcb2 : (⟨2, ![1, N]⟩ : Shape).ShapeCasts ⟨2, ![1, N]⟩) (hbb2 : (⟨2, ![1, N]⟩ : Shape).Broadcasts ⟨2, ![R, N]⟩)
    (x : FVec Ideal ⟨2, ![R, K1]⟩ .f32) (w1 : FVec Ideal ⟨2, ![K1, K2]⟩ .f32) (b1 : FVec Ideal ⟨2, ![1, K2]⟩ .f32)
    (w2 : FVec Ideal ⟨2, ![K2, N]⟩ .f32) (b2 : FVec Ideal ⟨2, ![1, N]⟩ .f32) (p : Fin R) (q : Fin N) :
    addf (matmul D2 none
          (truncf ψ (maximumf (addf (matmul D1 none (truncf ψ (shapeCast ⟨2, ![R, K1]⟩ x hc0) h) (truncf ψ w1 h) (constant ⟨2, ![R, K2]⟩ .f32 0x00000000#32))
              (broadcastTo ⟨2, ![R, K2]⟩ (shapeCast ⟨2, ![1, K2]⟩ b1 hcb1) hbb1))
            (broadcast ⟨2, ![R, K2]⟩ (Scalar.ofBits (F := Ideal) .f32 z))) h)
          (truncf ψ w2 h) (constant ⟨2, ![R, N]⟩ .f32 0x00000000#32))
        (broadcastTo ⟨2, ![R, N]⟩ (shapeCast ⟨2, ![1, N]⟩ b2 hcb2) hbb2) (ix2 p q)
      = (∑ k2 : Fin K2, max ((∑ k1 : Fin K1, x (ix2 p k1) * w1 (ix2 k1 k2)) + b1 (ix2 (0 : Fin 1) k2)) (Ideal.ofBits .f32 z) * w2 (ix2 k2 q))
          + b2 (ix2 (0 : Fin 1) q) := by
  rw [addRow_apply_kernel]
  refine congrArg (· + b2 (ix2 (0 : Fin 1) q)) ?_
  rw [matmul_trunc_apply D2 hD2 h _ w2 p q]
  refine Finset.sum_congr rfl fun k2 _ => congrArg (· * w2 (ix2 k2 q)) ?_
  show max (matmul D1 none (truncf ψ (shapeCast ⟨2, ![R, K1]⟩ x hc0) h) (truncf ψ w1 h) (constant ⟨2, ![R, K2]⟩ .f32 0x00000000#32) (ix2 p k2)
      + broadcastTo ⟨2, ![R, K2]⟩ (shapeCast ⟨2, ![1, K2]⟩ b1 hcb1) hbb1 (ix2 p k2)) _ = _
  rw [matmul_cast_trunc_apply D1 hD1 h hc0 x w1 p k2, SoftLayout.row_to_apply, shapeCast_self]
  rfl

/-! ## The same three on the host: whole-array operations as the entry-by-entry functions above -/

/-- The host's product of an [M, K] by a [K, N] matrix is `prod`. -/
theorem dotGeneral_eq_prod {M K N : Nat} (D : DotDims ⟨2, ![M, K]⟩ ⟨2, ![K, N]⟩ ⟨2, ![M, N]⟩) (hD : D = DotDims.plain M K N)
    (A : FVec Ideal ⟨2, ![M, K]⟩ .f32) (B : FVec Ideal ⟨2, ![K, N]⟩ .f32) : Host.dotGeneral D none A B = prod A B := by
  funext i
  obtain ⟨p, q, rfl⟩ : ∃ (p : Fin M) (q : Fin N), i = ix2 p q := ⟨i 0, i 1, eq_ix2 i⟩
  exact RowOps.dotGeneral_apply D hD none A B p q

/-- The host's sum of a matrix and a one-row matrix broadcast down its rows is `addRow`. -/
theorem addf_oneRow_eq_addRow {M N : Nat} (hbc : (⟨2, ![1, N]⟩ : Shape).BroadcastsInDim ⟨2, ![M, N]⟩ ![0, 1])
    (A : FVec Ideal ⟨2, ![M, N]⟩ .f32) (b : FVec Ideal ⟨2, ![1, N]⟩ .f32) :
    addf A (broadcastInDim ⟨2, ![M, N]⟩ ![0, 1] hbc b) = addRow A b := by
  funext i
  obtain ⟨p, q, rfl⟩ : ∃ (p : Fin M) (q : Fin N), i = ix2 p q := ⟨i 0, i 1, eq_ix2 i⟩
  show A (ix2 p q) + broadcastInDim ⟨2, ![M, N]⟩ ![0, 1] hbc b (ix2 p q) = _
  rw [broadcastInDim_oneRow_apply]
  rfl

/-- The host's maximum of a matrix with a scalar constant broadcast over it is `maxWord`. -/
theorem maximumf_const_eq_maxWord {M N : Nat} (z : BitVec 32)
    (h0 : (⟨0, ![]⟩ : Shape).BroadcastsInDim ⟨2, ![M, N]⟩ (![] : Fin 0 → Fin 2))
    (A : FVec Ideal ⟨2, ![M, N]⟩ .f32) :
    maximumf A (broadcastInDim ⟨2, ![M, N]⟩ ![] h0 (constant ⟨0, ![]⟩ .f32 z)) = maxWord A z := by
  funext i
  rfl

/-- A vector stood up as one row by a cast is the same vector broadcast along axis 1 of a one-row matrix. -/
theorem vecRow_cast_eq_broadcast {N : Nat} {α : Type} (h : (⟨1, ![N]⟩ : Shape).ShapeCasts ⟨2, ![1, N]⟩)
    (h' : (⟨1, ![N]⟩ : Shape).BroadcastsInDim ⟨2, ![1, N]⟩ (![1] : Fin 1 → Fin 2)) (v : (⟨1, ![N]⟩ : Shape).Idx → α) :
    shapeCast ⟨2, ![1, N]⟩ v h = broadcastInDim ⟨2, ![1, N]⟩ ![1] h' v := by
  funext i
  obtain ⟨z, q, rfl⟩ : ∃ (z : Fin 1) (q : Fin N), i = ix2 z q := ⟨i 0, i 1, eq_ix2 i⟩
  rw [SoftLayout.vec_row_cast_apply]
  refine (broadcastInDim_apply ![1] h' v (ix2 z q) (ix1 q) fun a => ?_).symm
  match a with
  | ⟨0, _⟩ =>
    show q.val = if N = 1 then 0 else q.val
    split
    · have := q.isLt; omega
    · rfl

end RowBlocks

end
-- ==== Proof.Reg0.lean ====
/-
  Kernel 0 of the program multiplies a block of 2000 consecutive rows of its left matrix by the whole right matrix at each
  of 50 grid points and writes the block of products back. Read here: point t's blocks are rows 2000·t … 2000·t + 1999 of
  the left matrix and the whole right matrix; what it writes back is that block of rows of the plain matrix product; the 50
  blocks fill the output, so after the kernel the output array IS the product of the two arrays as the kernel found them.
-/
import proofs.«103837_j2224793059852_1_alg».proof.Proof.Gen.KernelIdeal.Frame
import proofs.«103837_j2224793059852_1_alg».proof.Proof.LibRowBlocks
import Idealize.ShloMosaic.Lib.Pipeline.Value
import Idealize.ShloMosaic.Lib.ValueIdx

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left matrix's and the output's block index is (t, 0), the right matrix's (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem tlt (t : Fin cfg0.N) : t.val < 50 := lt_of_lt_of_eq t.isLt (N_0 : cfg0.N = 50)

/-- The body's stored value at entry (p, q): the sum over j of x(p, j) · w(j, q). -/
theorem pay_apply (x : Vec Ideal S2000x128 .f32) (w : Vec Ideal S128x128 .f32) (p : Fin 2000) (q : Fin 128) :
    k0_pay1 (F := Ideal) x w (ix2 p q) = ∑ j : Fin 128, x (ix2 p j) * w (ix2 j q) := by
  unfold k0_pay1
  exact RowBlocks.matmul_trunc_apply _ rfl _ x w p q

/-- Point t's block of the left matrix is rows 2000·t … of the array. -/
theorem x_blk (c : Dev nD) (t : Fin cfg0.N) (p : Fin 2000) (j : Fin 128) (hr : 2000 * t.val + p.val < 100000) :
    (iblk0 V c 0 t : S2000x128.Idx → EReal) (ix2 p j)
      = (V c main_arg0 : S100000x128.Idx → EReal) (ix2 ⟨2000 * t.val + p.val, hr⟩ j) := by
  unfold iblk0
  rw [View.read_apply]
  show V c main_arg0 _ = V c main_arg0 _
  refine congrArg _ (funext fun a => Fin.ext ?_)
  obtain ⟨e0, e1, -⟩ := idx t
  match a with
  | ⟨0, _⟩ => show win0_0.index t (0 : Fin 2) * 2000 + 1 * p.val = 2000 * t.val + p.val; rw [e0]; omega
  | ⟨1, _⟩ => show win0_0.index t (1 : Fin 2) * 128 + 1 * j.val = j.val; rw [e1]; omega

/-- Point t's block of the right matrix is the whole array. -/
theorem w_blk (c : Dev nD) (t : Fin cfg0.N) (j : Fin 128) (q : Fin 128) :
    (iblk0 V c 1 t : S128x128.Idx → EReal) (ix2 j q) = (V c main_arg2 : S128x128.Idx → EReal) (ix2 j q) := by
  unfold iblk0
  rw [View.read_apply]
  show V c main_arg2 _ = V c main_arg2 _
  refine congrArg _ (funext fun a => Fin.ext ?_)
  obtain ⟨-, -, e2, e3, -⟩ := idx t
  match a with
  | ⟨0, _⟩ => show win0_1.index t (0 : Fin 2) * 128 + 1 * j.val = j.val; rw [e2]; omega
  | ⟨1, _⟩ => show win0_1.index t (1 : Fin 2) * 128 + 1 * q.val = q.val; rw [e3]; omega

/-- What point t writes back is block t of the product of the two arrays. -/
theorem flushed_eq (c : Dev nD) (t : Fin cfg0.N) :
    (dat0 V c).flushed 2 t
      = ((cfg0.win 2).blk t).view.read (Elt Ideal) (RowBlocks.prod (V c main_arg0 : S100000x128.Idx → EReal) (V c main_arg2 : S128x128.Idx → EReal)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext y
  obtain ⟨p, q, rfl⟩ : ∃ (p : Fin 2000) (q : Fin 128), y = ix2 p q := ⟨y 0, y 1, eq_ix2 y⟩
  have ht := tlt t
  have hr : 2000 * t.val + p.val < 100000 := by have := p.isLt; omega
  rw [View.read_apply]
  have hemb : ((cfg0.win 2).blk t).view.emb (ix2 p q) = (ix2 ⟨2000 * t.val + p.val, hr⟩ q : S100000x128.Idx) := by
    funext a
    apply Fin.ext
    obtain ⟨-, -, -, -, e4, e5⟩ := idx t
    match a with
    | ⟨0, _⟩ => show win0_2.index t (0 : Fin 2) * 2000 + 1 * p.val = 2000 * t.val + p.val; rw [e4]; omega
    | ⟨1, _⟩ => show win0_2.index t (1 : Fin 2) * 128 + 1 * q.val = q.val; rw [e5]; omega
  rw [hemb]
  refine (pay_apply _ _ p q).trans ?_
  rw [RowBlocks.prod_apply]
  exact Finset.sum_congr rfl fun j _ => by rw [x_blk V c t p j hr, w_blk V c t j q]

/-- Every row of the output lies in the block of the point that is its quotient by 2000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  refine ⟨t, flush0_2 t, ?_⟩
  show i ∈ ((View.whole main_v13).slice (win0_2.rect t)).set
  rw [View.set_slice_whole, Rect.mem_set_unit]
  obtain ⟨-, -, -, -, e4, e5⟩ := idx t
  intro a
  match a with
  | ⟨0, _⟩ =>
    show win0_2.index t (0 : Fin 2) * 2000 ≤ (i 0).val ∧ (i 0).val < win0_2.index t (0 : Fin 2) * 2000 + 2000
    rw [e4]; show (i 0).val / 2000 * 2000 ≤ (i 0).val ∧ (i 0).val < (i 0).val / 2000 * 2000 + 2000; omega
  | ⟨1, _⟩ =>
    show win0_2.index t (1 : Fin 2) * 128 ≤ (i 1).val ∧ (i 1).val < win0_2.index t (1 : Fin 2) * 128 + 128
    rw [e5]; omega

/-- After the kernel its output array is the product of its two input arrays as it found them. -/
theorem final (c : Dev nD) :
    (dat0 V c).arrAt 2 cfg0.N = RowBlocks.prod (V c main_arg0 : S100000x128.Idx → EReal) (V c main_arg2 : S128x128.Idx → EReal) :=
  (dat0 V c).arrAt_eq_of_cover 2 _ (fun t _ => flushed_eq V c t) (cover)

end Cert.KernelIdeal.Reg0

end
-- ==== Proof.LibNodeCombine.lean ====
/-
  The node update of a graph-convolution layer read at an entry, for any extents, on the extended reals.
  With agg and h matrices [M, N], d a column of per-row weights, and b, mean, var, gamma, beta rows of per-column
  parameters, the update with batch normalisation is
      max(((agg + d · h + b − mean) · rsqrt(var + ε)) · gamma + beta, z)
  and without it  max(agg + d · h + b, z),  entry by entry. Both are stated twice: as a row-blocked kernel computes them on a
  block of R rows (the column [R, 1] and the rows [1, N] cast to themselves and laid over the block, the constants
  splat), and as a whole-array program computes them (a vector [M] squared, stood up as a column and laid over the
  matrix; vectors [N] stood up as rows and laid over it; rsqrt taken on the vector [N] before it is laid out). Nothing of
  real arithmetic is used: each side is the same expression at every entry.
-/
import Idealize.ShloMosaic.Lib.Pipeline.Value
import Idealize.ShloMosaic.Lib.ValueIdx
import Idealize.ShloMosaic.Lib.IdealHost
import Idealize.ShloMosaic.Lib.KernelVsHost
import Idealize.ShloMosaic.PureOps.Ideal.Laws
import proofs.«103837_j2224793059852_1_alg».proof.Proof.LibRowOps
import proofs.«103837_j2224793059852_1_alg».proof.Proof.LibSoftLayout

noncomputable section

namespace NodeCombine

open Idealize.ShloMosaic Idealize.ShloMosaic.ValueIdx

/-- One entry of the normalised update: max(((a + d·h + b − μ) · rsqrt(v + ε)) · γ + β, z). -/
def bnrelu (a h d b mu v g be : EReal) (eps z : BitVec 32) : EReal :=
  max ((((a + d * h) + b) - mu) * Ideal.rsqrt (v + Ideal.ofBits .f32 eps) * g + be) (Ideal.ofBits .f32 z)

/-- One entry of the plain update: max(a + d·h + b, z). -/
def sumrelu (a h d b : EReal) (z : BitVec 32) : EReal :=
  max ((a + d * h) + b) (Ideal.ofBits .f32 z)

/-- The normalised update of whole matrices: row p uses the column's entry (p, 0), column q the rows' entries (0, q). -/
def nodeBN {M N : Nat} (agg h : FVec Ideal ⟨2, ![M, N]⟩ .f32) (d : FVec Ideal ⟨2, ![M, 1]⟩ .f32)
    (b mu v g be : FVec Ideal ⟨2, ![1, N]⟩ .f32) (eps z : BitVec 32) : FVec Ideal ⟨2, ![M, N]⟩ .f32 :=
  fun i => bnrelu (agg i) (h i) (d (ix2 (i 0) (0 : Fin 1))) (b (ix2 (0 : Fin 1) (i 1))) (mu (ix2 (0 : Fin 1) (i 1)))
    (v (ix2 (0 : Fin 1) (i 1))) (g (ix2 (0 : Fin 1) (i 1))) (be (ix2 (0 : Fin 1) (i 1))) eps z

theorem nodeBN_apply {M N : Nat} (agg h : FVec Ideal ⟨2, ![M, N]⟩ .f32) (d : FVec Ideal ⟨2, ![M, 1]⟩ .f32)
    (b mu v g be : FVec Ideal ⟨2, ![1, N]⟩ .f32) (eps z : BitVec 32) (p : Fin M) (q : Fin N) :
    nodeBN agg h d b mu v g be eps z (ix2 p q)
      = bnrelu (agg (ix2 p q)) (h (ix2 p q)) (d (ix2 p (0 : Fin 1))) (b (ix2 (0 : Fin 1) q)) (mu (ix2 (0 : Fin 1) q))
          (v (ix2 (0 : Fin 1) q)) (g (ix2 (0 : Fin 1) q)) (be (ix2 (0 : Fin 1) q)) eps z := rfl

/-- The plain update of whole matrices. -/
def nodeSum {M N : Nat} (agg h : FVec Ideal ⟨2, ![M, N]⟩ .f32) (d : FVec Ideal ⟨2, ![M, 1]⟩ .f32)
    (b : FVec Ideal ⟨2, ![1, N]⟩ .f32) (z : BitVec 32) : FVec Ideal ⟨2, ![M, N]⟩ .f32 :=
  fun i => sumrelu (agg i) (h i) (d (ix2 (i 0) (0 : Fin 1))) (b (ix2 (0 : Fin 1) (i 1))) z

theorem nodeSum_apply {M N : Nat} (agg h : FVec Ideal ⟨2, ![M, N]⟩ .f32) (d : FVec Ideal ⟨2, ![M, 1]⟩ .f32)
    (b : FVec Ideal ⟨2, ![1, N]⟩ .f32) (z : BitVec 32) (p : Fin M) (q : Fin N) :
    nodeSum agg h d b z (ix2 p q)
      = sumrelu (agg (ix2 p q)) (h (ix2 p q)) (d (ix2 p (0 : Fin 1))) (b (ix2 (0 : Fin 1) q)) z := rfl

/-! ## On a block of R rows, as a kernel computes it -/

/-- The normalised update on a block: entry (p, q). -/
theorem block_bn_apply {R N : Nat} (eps z : BitVec 32)
    (hcm : (⟨2, ![R, N]⟩ : Shape).ShapeCasts ⟨2, ![R, N]⟩) (hcc : (⟨2, ![R, 1]⟩ : Shape).ShapeCasts ⟨2, ![R, 1]⟩)
    (hcr : (⟨2, ![1, N]⟩ : Shape).ShapeCasts ⟨2, ![1, N]⟩)
    (hbc : (⟨2, ![R, 1]⟩ : Shape).Broadcasts ⟨2, ![R, N]⟩) (hbr : (⟨2, ![1, N]⟩ : Shape).Broadcasts ⟨2, ![R, N]⟩)
    (d : FVec Ideal ⟨2, ![R, 1]⟩ .f32) (h : FVec Ideal ⟨2, ![R, N]⟩ .f32) (b mu v g be : FVec Ideal ⟨2, ![1, N]⟩ .f32)
    (agg : FVec Ideal ⟨2, ![R, N]⟩ .f32) (p : Fin R) (q : Fin N) :
    maximumf
        (addf
          (mulf
            (mulf
              (subf
                (addf
                  (addf (shapeCast ⟨2, ![R, N]⟩ agg hcm)
                    (mulf (broadcastTo ⟨2, ![R, N]⟩ (shapeCast ⟨2, ![R, 1]⟩ (shapeCast ⟨2, ![R, 1]⟩ d hcc) hcc) hbc)
                      (shapeCast ⟨2, ![R, N]⟩ h hcm)))
                  (broadcastTo ⟨2, ![R, N]⟩ (shapeCast ⟨2, ![1, N]⟩ (shapeCast ⟨2, ![1, N]⟩ b hcr) hcr) hbr))
                (broadcastTo ⟨2, ![R, N]⟩ (shapeCast ⟨2, ![1, N]⟩ (shapeCast ⟨2, ![1, N]⟩ mu hcr) hcr) hbr))
              (rsqrt (addf (broadcastTo ⟨2, ![R, N]⟩ (shapeCast ⟨2, ![1, N]⟩ (shapeCast ⟨2, ![1, N]⟩ v hcr) hcr) hbr)
                (broadcast ⟨2, ![R, N]⟩ (Scalar.ofBits (F := Ideal) .f32 eps)))))
            (broadcastTo ⟨2, ![R, N]⟩ (shapeCast ⟨2, ![1, N]⟩ (shapeCast ⟨2, ![1, N]⟩ g hcr) hcr) hbr))
          (broadcastTo ⟨2, ![R, N]⟩ (shapeCast ⟨2, ![1, N]⟩ (shapeCast ⟨2, ![1, N]⟩ be hcr) hcr) hbr))
        (broadcast ⟨2, ![R, N]⟩ (Scalar.ofBits (F := Ideal) .f32 z)) (ix2 p q)
      = bnrelu (agg (ix2 p q)) (h (ix2 p q)) (d (ix2 p (0 : Fin 1))) (b (ix2 (0 : Fin 1) q)) (mu (ix2 (0 : Fin 1) q))
          (v (ix2 (0 : Fin 1) q)) (g (ix2 (0 : Fin 1) q)) (be (ix2 (0 : Fin 1) q)) eps z := by
  simp only [shapeCast_self]
  show max ((((agg (ix2 p q) + broadcastTo ⟨2, ![R, N]⟩ d hbc (ix2 p q) * h (ix2 p q))
        + broadcastTo ⟨2, ![R, N]⟩ b hbr (ix2 p q)) - broadcastTo ⟨2, ![R, N]⟩ mu hbr (ix2 p q))
        * Ideal.rsqrt (broadcastTo ⟨2, ![R, N]⟩ v hbr (ix2 p q) + Ideal.ofBits .f32 eps)
        * broadcastTo ⟨2, ![R, N]⟩ g hbr (ix2 p q) + broadcastTo ⟨2, ![R, N]⟩ be hbr (ix2 p q)) (Ideal.ofBits .f32 z) = _
  rw [RowOps.col_to_apply, SoftLayout.row_to_apply, SoftLayout.row_to_apply, SoftLayout.row_to_apply,
    SoftLayout.row_to_apply, SoftLayout.row_to_apply]
  rfl

/-- The plain update on a block: entry (p, q). -/
theorem block_sum_apply {R N : Nat} (z : BitVec 32)
    (hcm : (⟨2, ![R, N]⟩ : Shape).ShapeCasts ⟨2, ![R, N]⟩) (hcc : (⟨2, ![R, 1]⟩ : Shape).ShapeCasts ⟨2, ![R, 1]⟩)
    (hcr : (⟨2, ![1, N]⟩ : Shape).ShapeCasts ⟨2, ![1, N]⟩)
    (hbc : (⟨2, ![R, 1]⟩ : Shape).Broadcasts ⟨2, ![R, N]⟩) (hbr : (⟨2, ![1, N]⟩ : Shape).Broadcasts ⟨2, ![R, N]⟩)
    (d : FVec Ideal ⟨2, ![R, 1]⟩ .f32) (h : FVec Ideal ⟨2, ![R, N]⟩ .f32) (b : FVec Ideal ⟨2, ![1, N]⟩ .f32)
    (agg : FVec Ideal ⟨2, ![R, N]⟩ .f32) (p : Fin R) (q : Fin N) :
    maximumf
        (addf
          (addf (shapeCast ⟨2, ![R, N]⟩ agg hcm)
            (mulf (broadcastTo ⟨2, ![R, N]⟩ (shapeCast ⟨2, ![R, 1]⟩ (shapeCast ⟨2, ![R, 1]⟩ d hcc) hcc) hbc)
              (shapeCast ⟨2, ![R, N]⟩ h hcm)))
          (broadcastTo ⟨2, ![R, N]⟩ (shapeCast ⟨2, ![1, N]⟩ (shapeCast ⟨2, ![1, N]⟩ b hcr) hcr) hbr))
        (broadcast ⟨2, ![R, N]⟩ (Scalar.ofBits (F := Ideal) .f32 z)) (ix2 p q)
      = sumrelu (agg (ix2 p q)) (h (ix2 p q)) (d (ix2 p (0 : Fin 1))) (b (ix2 (0 : Fin 1) q)) z := by
  simp only [shapeCast_self]
  show max ((agg (ix2 p q) + broadcastTo ⟨2, ![R, N]⟩ d hbc (ix2 p q) * h (ix2 p q))
        + broadcastTo ⟨2, ![R, N]⟩ b hbr (ix2 p q)) (Ideal.ofBits .f32 z) = _
  rw [RowOps.col_to_apply, SoftLayout.row_to_apply]
  rfl

/-! ## On whole matrices, as a program of whole-array operations computes it -/

variable {α : Type}

/-- A column [M, 1] laid over [M, N] by the whole-array broadcast: entry (p, q) is entry (p, 0). -/
theorem col_over_apply {M N : Nat} (hb : (⟨2, ![M, 1]⟩ : Shape).BroadcastsInDim ⟨2, ![M, N]⟩ ![0, 1])
    (y : (⟨2, ![M, 1]⟩ : Shape).Idx → α) (p : Fin M) (q : Fin N) :
    broadcastInDim ⟨2, ![M, N]⟩ ![0, 1] hb y (ix2 p q) = y (ix2 p (0 : Fin 1)) := by
  refine broadcastInDim_apply ![0, 1] hb y (ix2 p q) (ix2 p (0 : Fin 1)) ?_
  intro a
  match a with
  | ⟨0, _⟩ =>
    show p.val = if M = 1 then 0 else p.val
    split
    · have := p.isLt; omega
    · rfl
  | ⟨1, _⟩ =>
    show (0 : ℕ) = if (1 : ℕ) = 1 then 0 else _
    simp

/-- A vector [N] stood up as a row [1, N] by the whole-array broadcast: entry (0, q) is entry q. -/
theorem vec_row_apply {N : Nat} (hb : (⟨1, ![N]⟩ : Shape).BroadcastsInDim ⟨2, ![1, N]⟩ (![1] : Fin 1 → Fin 2))
    (y : (⟨1, ![N]⟩ : Shape).Idx → α) (zc : Fin 1) (q : Fin N) :
    broadcastInDim ⟨2, ![1, N]⟩ ![1] hb y (ix2 zc q) = y (ix1 q) :=
  broadcastInDim_apply _ hb y (ix2 zc q) (ix1 q) (fun ax => match ax with
    | ⟨0, _⟩ => by
      show q.val = if N = 1 then 0 else q.val
      split
      · have := q.isLt; omega
      · rfl)

/-- The normalised update by whole-array operations is `nodeBN` of the column and rows obtained by changes of shape. -/
theorem host_bn_eq {M N : Nat} (eps z : BitVec 32)
    (hsq : (⟨1, ![M]⟩ : Shape).BroadcastsInDim ⟨2, ![M, 1]⟩ (![0] : Fin 1 → Fin 2))
    (hcol : (⟨2, ![M, 1]⟩ : Shape).BroadcastsInDim ⟨2, ![M, N]⟩ ![0, 1])
    (hvr : (⟨1, ![N]⟩ : Shape).BroadcastsInDim ⟨2, ![1, N]⟩ (![1] : Fin 1 → Fin 2))
    (hrow : (⟨2, ![1, N]⟩ : Shape).BroadcastsInDim ⟨2, ![M, N]⟩ ![0, 1])
    (hsv : (⟨0, ![]⟩ : Shape).BroadcastsInDim ⟨1, ![N]⟩ (![] : Fin 0 → Fin 1))
    (hsm : (⟨0, ![]⟩ : Shape).BroadcastsInDim ⟨2, ![M, N]⟩ (![] : Fin 0 → Fin 2))
    (hc1 : (⟨1, ![M]⟩ : Shape).ShapeCasts ⟨2, ![M, 1]⟩) (hcr : (⟨1, ![N]⟩ : Shape).ShapeCasts ⟨2, ![1, N]⟩)
    (agg h : FVec Ideal ⟨2, ![M, N]⟩ .f32) (dinv : FVec Ideal ⟨1, ![M]⟩ .f32) (b mu v g be : FVec Ideal ⟨1, ![N]⟩ .f32) :
    maximumf
        (addf
          (mulf
            (mulf
              (subf
                (addf
                  (addf agg
                    (mulf (broadcastInDim ⟨2, ![M, N]⟩ ![0, 1] hcol (broadcastInDim ⟨2, ![M, 1]⟩ ![0] hsq (mulf dinv dinv))) h))
                  (broadcastInDim ⟨2, ![M, N]⟩ ![0, 1] hrow (broadcastInDim ⟨2, ![1, N]⟩ ![1] hvr b)))
                (broadcastInDim ⟨2, ![M, N]⟩ ![0, 1] hrow (broadcastInDim ⟨2, ![1, N]⟩ ![1] hvr mu)))
              (broadcastInDim ⟨2, ![M, N]⟩ ![0, 1] hrow (broadcastInDim ⟨2, ![1, N]⟩ ![1] hvr
                (Host.rsqrt (addf v (broadcastInDim ⟨1, ![N]⟩ ![] hsv (constant (F := Ideal) ⟨0, ![]⟩ .f32 eps)))))))
            (broadcastInDim ⟨2, ![M, N]⟩ ![0, 1] hrow (broadcastInDim ⟨2, ![1, N]⟩ ![1] hvr g)))
          (broadcastInDim ⟨2, ![M, N]⟩ ![0, 1] hrow (broadcastInDim ⟨2, ![1, N]⟩ ![1] hvr be)))
        (broadcastInDim ⟨2, ![M, N]⟩ ![] hsm (constant (F := Ideal) ⟨0, ![]⟩ .f32 z))
      = nodeBN agg h (shapeCast ⟨2, ![M, 1]⟩ (mulf dinv dinv) hc1) (shapeCast ⟨2, ![1, N]⟩ b hcr)
          (shapeCast ⟨2, ![1, N]⟩ mu hcr) (shapeCast ⟨2, ![1, N]⟩ v hcr) (shapeCast ⟨2, ![1, N]⟩ g hcr)
          (shapeCast ⟨2, ![1, N]⟩ be hcr) eps z := by
  funext i
  obtain ⟨p, q, rfl⟩ : ∃ (p : Fin M) (q : Fin N), i = ix2 p q := ⟨i 0, i 1, eq_ix2 i⟩
  rw [nodeBN_apply]
  simp only [SoftLayout.vec_col_cast_apply, SoftLayout.vec_row_cast_apply]
  show max ((((agg (ix2 p q) + broadcastInDim ⟨2, ![M, N]⟩ ![0, 1] hcol (broadcastInDim ⟨2, ![M, 1]⟩ ![0] hsq (mulf dinv dinv)) (ix2 p q) * h (ix2 p q))
        + broadcastInDim ⟨2, ![M, N]⟩ ![0, 1] hrow (broadcastInDim ⟨2, ![1, N]⟩ ![1] hvr b) (ix2 p q))
        - broadcastInDim ⟨2, ![M, N]⟩ ![0, 1] hrow (broadcastInDim ⟨2, ![1, N]⟩ ![1] hvr mu) (ix2 p q))
        * broadcastInDim ⟨2, ![M, N]⟩ ![0, 1] hrow (broadcastInDim ⟨2, ![1, N]⟩ ![1] hvr
            (Host.rsqrt (addf v (broadcastInDim ⟨1, ![N]⟩ ![] hsv (constant (F := Ideal) ⟨0, ![]⟩ .f32 eps))))) (ix2 p q)
        * broadcastInDim ⟨2, ![M, N]⟩ ![0, 1] hrow (broadcastInDim ⟨2, ![1, N]⟩ ![1] hvr g) (ix2 p q)
        + broadcastInDim ⟨2, ![M, N]⟩ ![0, 1] hrow (broadcastInDim ⟨2, ![1, N]⟩ ![1] hvr be) (ix2 p q))
      (broadcastInDim ⟨2, ![M, N]⟩ ![] hsm (constant (F := Ideal) ⟨0, ![]⟩ .f32 z) (ix2 p q)) = _
  rw [col_over_apply, RowOps.vec_col_apply, broadcastInDim_scalar_apply]
  rw [broadcastInDim_oneRow_apply, broadcastInDim_oneRow_apply, broadcastInDim_oneRow_apply, broadcastInDim_oneRow_apply,
    broadcastInDim_oneRow_apply, vec_row_apply, vec_row_apply, vec_row_apply, vec_row_apply, vec_row_apply]
  show max ((((agg (ix2 p q) + (dinv (ix1 p) * dinv (ix1 p)) * h (ix2 p q)) + b (ix1 q)) - mu (ix1 q))
        * Ideal.rsqrt (v (ix1 q) + broadcastInDim ⟨1, ![N]⟩ ![] hsv (constant (F := Ideal) ⟨0, ![]⟩ .f32 eps) (ix1 q))
        * g (ix1 q) + be (ix1 q)) (Ideal.ofBits .f32 z) = _
  rw [broadcastInDim_scalar_apply]
  rfl

/-- The plain update by whole-array operations is `nodeSum` of the column and row obtained by changes of shape. -/
theorem host_sum_eq {M N : Nat} (z : BitVec 32)
    (hsq : (⟨1, ![M]⟩ : Shape).BroadcastsInDim ⟨2, ![M, 1]⟩ (![0] : Fin 1 → Fin 2))
    (hcol : (⟨2, ![M, 1]⟩ : Shape).BroadcastsInDim ⟨2, ![M, N]⟩ ![0, 1])
    (hvr : (⟨1, ![N]⟩ : Shape).BroadcastsInDim ⟨2, ![1, N]⟩ (![1] : Fin 1 → Fin 2))
    (hrow : (⟨2, ![1, N]⟩ : Shape).BroadcastsInDim ⟨2, ![M, N]⟩ ![0, 1])
    (hsm : (⟨0, ![]⟩ : Shape).BroadcastsInDim ⟨2, ![M, N]⟩ (![] : Fin 0 → Fin 2))
    (hc1 : (⟨1, ![M]⟩ : Shape).ShapeCasts ⟨2, ![M, 1]⟩) (hcr : (⟨1, ![N]⟩ : Shape).ShapeCasts ⟨2, ![1, N]⟩)
    (agg h : FVec Ideal ⟨2, ![M, N]⟩ .f32) (dinv : FVec Ideal ⟨1, ![M]⟩ .f32) (b : FVec Ideal ⟨1, ![N]⟩ .f32) :
    maximumf
        (addf
          (addf agg
            (mulf (broadcastInDim ⟨2, ![M, N]⟩ ![0, 1] hcol (broadcastInDim ⟨2, ![M, 1]⟩ ![0] hsq (mulf dinv dinv))) h))
          (broadcastInDim ⟨2, ![M, N]⟩ ![0, 1] hrow (broadcastInDim ⟨2, ![1, N]⟩ ![1] hvr b)))
        (broadcastInDim ⟨2, ![M, N]⟩ ![] hsm (constant (F := Ideal) ⟨0, ![]⟩ .f32 z))
      = nodeSum agg h (shapeCast ⟨2, ![M, 1]⟩ (mulf dinv dinv) hc1) (shapeCast ⟨2, ![1, N]⟩ b hcr) z := by
  funext i
  obtain ⟨p, q, rfl⟩ : ∃ (p : Fin M) (q : Fin N), i = ix2 p q := ⟨i 0, i 1, eq_ix2 i⟩
  rw [nodeSum_apply]
  simp only [SoftLayout.vec_col_cast_apply, SoftLayout.vec_row_cast_apply]
  show max ((agg (ix2 p q) + broadcastInDim ⟨2, ![M, N]⟩ ![0, 1] hcol (broadcastInDim ⟨2, ![M, 1]⟩ ![0] hsq (mulf dinv dinv)) (ix2 p q) * h (ix2 p q))
        + broadcastInDim ⟨2, ![M, N]⟩ ![0, 1] hrow (broadcastInDim ⟨2, ![1, N]⟩ ![1] hvr b) (ix2 p q))
      (broadcastInDim ⟨2, ![M, N]⟩ ![] hsm (constant (F := Ideal) ⟨0, ![]⟩ .f32 z) (ix2 p q)) = _
  rw [col_over_apply, RowOps.vec_col_apply, broadcastInDim_scalar_apply, broadcastInDim_oneRow_apply, vec_row_apply]
  rfl

end NodeCombine

end
-- ==== Proof.RefLayers.lean ====
/-
  The reference program, layer by layer. Its first layer's output is the normalised node update of (the scatter-added
  messages, the product x·W1, the squared inverse root degrees, the bias and the batch-norm vectors); each later
  product is the plain matrix product of the layer before; the last layer's output is the plain node update. The
  message-passing stages in between (gathers along the edge list and the accumulating scatter) are left as the named
  stages they are: both programs apply them in the same way, so they are never opened.
-/
import proofs.«103837_j2224793059852_1_alg».proof.Proof.Gen.ReferenceIdeal.Read
import proofs.«103837_j2224793059852_1_alg».proof.Proof.LibRowBlocks
import proofs.«103837_j2224793059852_1_alg».proof.Proof.LibNodeCombine

noncomputable section

namespace Cert.ReferenceIdeal.Layers

open Cert.ReferenceIdeal Cert.ReferenceIdeal.Gen Cert.ReferenceIdeal.Read Idealize.ShloMosaic Idealize.ShloMosaic.TcCoe

variable (x0 : (⟨S100000x128, .f32⟩ : BufTy).Contents (Elt Ideal)) (x1 : (⟨S2x1600000, .i32⟩ : BufTy).Contents (Elt Ideal))
  (x2 x4 : (⟨S128x128, .f32⟩ : BufTy).Contents (Elt Ideal)) (x6 : (⟨S128x64, .f32⟩ : BufTy).Contents (Elt Ideal))
  (x3 x5 x8 x9 x10 x11 x12 x13 x14 x15 : (⟨S128, .f32⟩ : BufTy).Contents (Elt Ideal)) (x7 : (⟨S64, .f32⟩ : BufTy).Contents (Elt Ideal))
  (hcol : S100000.ShapeCasts S100000x1) (hrow : S128.ShapeCasts S1x128) (hrow' : S64.ShapeCasts S1x64)

/-- The three products are plain matrix products. -/
theorem prod1 : val_main_v11 (F := Ideal) x0 x2 = RowBlocks.prod x0 x2 := by
  unfold val_main_v11
  exact RowBlocks.dotGeneral_eq_prod _ rfl x0 x2

theorem prod2 : val_main_v64 (F := Ideal) x0 x1 x2 x3 x4 x8 x9 x10 x11
    = RowBlocks.prod (val_main_v63 (F := Ideal) x0 x1 x2 x3 x8 x9 x10 x11) x4 := by
  unfold val_main_v64
  exact RowBlocks.dotGeneral_eq_prod _ rfl _ x4

theorem prod3 : val_main_v117 (F := Ideal) x0 x1 x2 x3 x4 x5 x6 x8 x9 x10 x11 x12 x13 x14 x15
    = RowBlocks.prod (val_main_v116 (F := Ideal) x0 x1 x2 x3 x4 x5 x8 x9 x10 x11 x12 x13 x14 x15) x6 := by
  unfold val_main_v117
  exact RowBlocks.dotGeneral_eq_prod _ rfl _ x6

/-- Layer 1's output: the normalised update of the aggregated messages and x·W1. -/
theorem out1 : val_main_v63 (F := Ideal) x0 x1 x2 x3 x8 x9 x10 x11
    = NodeCombine.nodeBN (val_main_v39 (F := Ideal) x0 x1 x2) (val_main_v11 (F := Ideal) x0 x2)
        (shapeCast S100000x1 (mulf (val_main_v10 (F := Ideal) x1) (val_main_v10 (F := Ideal) x1)) hcol)
        (shapeCast S1x128 x3 hrow) (shapeCast S1x128 x10 hrow)
        (shapeCast S1x128 x11 hrow) (shapeCast S1x128 x8 hrow)
        (shapeCast S1x128 x9 hrow) 0x3727C5AC#32 0x00000000#32 := by
  unfold val_main_v63 val_main_v62 val_main_v61 val_main_v60 val_main_v59 val_main_v58 val_main_v57 val_main_v56 val_main_v55
    val_main_v54 val_main_v53 val_main_v52 val_main_v51 val_main_cst_8 val_main_v50 val_main_v49 val_main_v48 val_main_v47
    val_main_v46 val_main_v45 val_main_v44 val_main_v43 val_main_v42 val_main_v41 val_main_v40 val_main_call0_v0 val_main_call0_cst
  exact NodeCombine.host_bn_eq 0x3727C5AC#32 0x00000000#32 _ _ _ _ _ _ _ _ _ _ _ x3 x10 x11 x8 x9

/-- Layer 2's output, the same of the layer-2 messages and h1·W2. -/
theorem out2 : val_main_v116 (F := Ideal) x0 x1 x2 x3 x4 x5 x8 x9 x10 x11 x12 x13 x14 x15
    = NodeCombine.nodeBN (val_main_v92 (F := Ideal) x0 x1 x2 x3 x4 x8 x9 x10 x11) (val_main_v64 (F := Ideal) x0 x1 x2 x3 x4 x8 x9 x10 x11)
        (shapeCast S100000x1 (mulf (val_main_v10 (F := Ideal) x1) (val_main_v10 (F := Ideal) x1)) hcol)
        (shapeCast S1x128 x5 hrow) (shapeCast S1x128 x14 hrow)
        (shapeCast S1x128 x15 hrow) (shapeCast S1x128 x12 hrow)
        (shapeCast S1x128 x13 hrow) 0x3727C5AC#32 0x00000000#32 := by
  unfold val_main_v116 val_main_v115 val_main_v114 val_main_v113 val_main_v112 val_main_v111 val_main_v110 val_main_v109 val_main_v108
    val_main_v107 val_main_v106 val_main_v105 val_main_v104 val_main_cst_16 val_main_v103 val_main_v102 val_main_v101 val_main_v100
    val_main_v99 val_main_v98 val_main_v97 val_main_v96 val_main_v95 val_main_v94 val_main_v93 val_main_call1_v0 val_main_call1_cst
  exact NodeCombine.host_bn_eq 0x3727C5AC#32 0x00000000#32 _ _ _ _ _ _ _ _ _ _ _ x5 x14 x15 x12 x13

/-- Layer 3's output: the plain update of the layer-3 messages and h2·W3. -/
theorem out3 : val_main_v154 (F := Ideal) x0 x1 x2 x3 x4 x5 x6 x7 x8 x9 x10 x11 x12 x13 x14 x15
    = NodeCombine.nodeSum (val_main_v145 (F := Ideal) x0 x1 x2 x3 x4 x5 x6 x8 x9 x10 x11 x12 x13 x14 x15)
        (val_main_v117 (F := Ideal) x0 x1 x2 x3 x4 x5 x6 x8 x9 x10 x11 x12 x13 x14 x15)
        (shapeCast S100000x1 (mulf (val_main_v10 (F := Ideal) x1) (val_main_v10 (F := Ideal) x1)) hcol)
        (shapeCast S1x64 x7 hrow') 0x00000000#32 := by
  unfold val_main_v154 val_main_v153 val_main_v152 val_main_v151 val_main_v150 val_main_v149 val_main_v148 val_main_v147 val_main_v146
    val_main_call2_v0 val_main_call2_cst
  exact NodeCombine.host_sum_eq 0x00000000#32 _ _ _ _ _ _ _ _ _ _ x7

end Cert.ReferenceIdeal.Layers

end
-- ==== Proof.KFold1.lean ====
/-
  The kernel program's buffers, boundary by boundary (first part). Before the first kernel the program slices the edge list
  into source and target indices, counts in-degrees by an accumulating scatter of ones, and takes d = rsqrt(degree + 1) and
  the column of d². These are the same operations the reference applies, so each buffer is named by the reference's stage
  of the same arguments; the argument arrays themselves are untouched. After the first kernel its output holds the
  product x·W1, and every other buffer is as before.
-/
import proofs.«103837_j2224793059852_1_alg».proof.Proof.Gen.KernelIdeal.Frame
import proofs.«103837_j2224793059852_1_alg».proof.Proof.Gen.ReferenceIdeal.Read
import proofs.«103837_j2224793059852_1_alg».proof.Proof.Reg0
import proofs.«103837_j2224793059852_1_alg».proof.Proof.RefLayers
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Read (val_main_v1 val_main_v3 val_main_v10 val_main_v11 val_main_v39 val_main_v63 val_main_v64 val_main_v92
  val_main_v116 val_main_v117 val_main_v145 val_main_v154)

variable (m : (ℓ : Loc nD τ sig) → Buf (Elt Ideal) ℓ) (ρ : Dev nD → PrngReg) (c : Dev nD)

/-! ## Before the first kernel -/

theorem a0_1 : W1 m ρ c (Proc.devRef .tc main_arg0) = m ((c : Thread nD τ).loc main_arg0) := by
  show StableHlo.after hostOps0 (W0 m ρ c) (Proc.devRef .tc main_arg0) = _
  dsimp only [hostOps0]
  after_results_simp <;> rfl

theorem a2_1 : W1 m ρ c (Proc.devRef .tc main_arg2) = m ((c : Thread nD τ).loc main_arg2) := by
  show StableHlo.after hostOps0 (W0 m ρ c) (Proc.devRef .tc main_arg2) = _
  dsimp only [hostOps0]
  after_results_simp <;> rfl

theorem a3_1 : W1 m ρ c (Proc.devRef .tc main_arg3) = m ((c : Thread nD τ).loc main_arg3) := by
  show StableHlo.after hostOps0 (W0 m ρ c) (Proc.devRef .tc main_arg3) = _
  dsimp only [hostOps0]
  after_results_simp <;> rfl

theorem a8_1 : W1 m ρ c (Proc.devRef .tc main_arg8) = m ((c : Thread nD τ).loc main_arg8) := by
  show StableHlo.after hostOps0 (W0 m ρ c) (Proc.devRef .tc main_arg8) = _
  dsimp only [hostOps0]
  after_results_simp <;> rfl

theorem a9_1 : W1 m ρ c (Proc.devRef .tc main_arg9) = m ((c : Thread nD τ).loc main_arg9) := by
  show StableHlo.after hostOps0 (W0 m ρ c) (Proc.devRef .tc main_arg9) = _
  dsimp only [hostOps0]
  after_results_simp <;> rfl

theorem a10_1 : W1 m ρ c (Proc.devRef .tc main_arg10) = m ((c : Thread nD τ).loc main_arg10) := by
  show StableHlo.after hostOps0 (W0 m ρ c) (Proc.devRef .tc main_arg10) = _
  dsimp only [hostOps0]
  after_results_simp <;> rfl

theorem a11_1 : W1 m ρ c (Proc.devRef .tc main_arg11) = m ((c : Thread nD τ).loc main_arg11) := by
  show StableHlo.after hostOps0 (W0 m ρ c) (Proc.devRef .tc main_arg11) = _
  dsimp only [hostOps0]
  after_results_simp <;> rfl

theorem a4_1 : W1 m ρ c (Proc.devRef .tc main_arg4) = m ((c : Thread nD τ).loc main_arg4) := by
  show StableHlo.after hostOps0 (W0 m ρ c) (Proc.devRef .tc main_arg4) = _
  dsimp only [hostOps0]
  after_results_simp <;> rfl

theorem a5_1 : W1 m ρ c (Proc.devRef .tc main_arg5) = m ((c : Thread nD τ).loc main_arg5) := by
  show StableHlo.after hostOps0 (W0 m ρ c) (Proc.devRef .tc main_arg5) = _
  dsimp only [hostOps0]
  after_results_simp <;> rfl

theorem a12_1 : W1 m ρ c (Proc.devRef .tc main_arg12) = m ((c : Thread nD τ).loc main_arg12) := by
  show StableHlo.after hostOps0 (W0 m ρ c) (Proc.devRef .tc main_arg12) = _
  dsimp only [hostOps0]
  after_results_simp <;> rfl

theorem a13_1 : W1 m ρ c (Proc.devRef .tc main_arg13) = m ((c : Thread nD τ).loc main_arg13) := by
  show StableHlo.after hostOps0 (W0 m ρ c) (Proc.devRef .tc main_arg13) = _
  dsimp only [hostOps0]
  after_results_simp <;> rfl

theorem a14_1 : W1 m ρ c (Proc.devRef .tc main_arg14) = m ((c : Thread nD τ).loc main_arg14) := by
  show StableHlo.after hostOps0 (W0 m ρ c) (Proc.devRef .tc main_arg14) = _
  dsimp only [hostOps0]
  after_results_simp <;> rfl

theorem a15_1 : W1 m ρ c (Proc.devRef .tc main_arg15) = m ((c : Thread nD τ).loc main_arg15) := by
  show StableHlo.after hostOps0 (W0 m ρ c) (Proc.devRef .tc main_arg15) = _
  dsimp only [hostOps0]
  after_results_simp <;> rfl

theorem a6_1 : W1 m ρ c (Proc.devRef .tc main_arg6) = m ((c : Thread nD τ).loc main_arg6) := by
  show StableHlo.after hostOps0 (W0 m ρ c) (Proc.devRef .tc main_arg6) = _
  dsimp only [hostOps0]
  after_results_simp <;> rfl

theorem a7_1 : W1 m ρ c (Proc.devRef .tc main_arg7) = m ((c : Thread nD τ).loc main_arg7) := by
  show StableHlo.after hostOps0 (W0 m ρ c) (Proc.devRef .tc main_arg7) = _
  dsimp only [hostOps0]
  after_results_simp <;> rfl

theorem src_1 : W1 m ρ c (Proc.devRef .tc main_v1) = val_main_v1 (F := Ideal) (m ((c : Thread nD τ).loc main_arg1)) := by
  show StableHlo.after hostOps0 (W0 m ρ c) (Proc.devRef .tc main_v1) = _
  dsimp only [hostOps0]
  after_results_simp <;> rfl

theorem dst_1 : W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results_simp <;> rfl

theorem dinv_1 : W1 m ρ c (Proc.devRef .tc main_v10) = val_main_v10 (F := Ideal) (m ((c : Thread nD τ).loc main_arg1)) := by
  show StableHlo.after hostOps0 (W0 m ρ c) (Proc.devRef .tc main_v10) = _
  dsimp only [hostOps0]
  after_results_simp <;> rfl

theorem dcol_1 : W1 m ρ c (Proc.devRef .tc main_v12) = (shapeCast S100000x1 (mulf (F := Ideal) (s := S100000) (φ := .f32) (val_main_v10 (F := Ideal) (m ((c : Thread nD τ).loc main_arg1))) (val_main_v10 (F := Ideal) (m ((c : Thread nD τ).loc main_arg1)))) shapeCasts_S100000_S100000x1 : FVec Ideal S100000x1 .f32) := by
  show StableHlo.after hostOps0 (W0 m ρ c) (Proc.devRef .tc main_v12) = _
  dsimp only [hostOps0]
  after_results_simp <;> rfl

/-! ## After the first kernel -/

theorem a3_2 : W2 m ρ c (Proc.devRef .tc main_arg3) = m ((c : Thread nD τ).loc main_arg3) :=
  (W2_of_ne m ρ c main_arg3 (by decide)).trans (a3_1 m ρ c)

theorem a8_2 : W2 m ρ c (Proc.devRef .tc main_arg8) = m ((c : Thread nD τ).loc main_arg8) :=
  (W2_of_ne m ρ c main_arg8 (by decide)).trans (a8_1 m ρ c)

theorem a9_2 : W2 m ρ c (Proc.devRef .tc main_arg9) = m ((c : Thread nD τ).loc main_arg9) :=
  (W2_of_ne m ρ c main_arg9 (by decide)).trans (a9_1 m ρ c)

theorem a10_2 : W2 m ρ c (Proc.devRef .tc main_arg10) = m ((c : Thread nD τ).loc main_arg10) :=
  (W2_of_ne m ρ c main_arg10 (by decide)).trans (a10_1 m ρ c)

theorem a11_2 : W2 m ρ c (Proc.devRef .tc main_arg11) = m ((c : Thread nD τ).loc main_arg11) :=
  (W2_of_ne m ρ c main_arg11 (by decide)).trans (a11_1 m ρ c)

theorem a4_2 : W2 m ρ c (Proc.devRef .tc main_arg4) = m ((c : Thread nD τ).loc main_arg4) :=
  (W2_of_ne m ρ c main_arg4 (by decide)).trans (a4_1 m ρ c)

theorem a5_2 : W2 m ρ c (Proc.devRef .tc main_arg5) = m ((c : Thread nD τ).loc main_arg5) :=
  (W2_of_ne m ρ c main_arg5 (by decide)).trans (a5_1 m ρ c)

theorem a12_2 : W2 m ρ c (Proc.devRef .tc main_arg12) = m ((c : Thread nD τ).loc main_arg12) :=
  (W2_of_ne m ρ c main_arg12 (by decide)).trans (a12_1 m ρ c)

theorem a13_2 : W2 m ρ c (Proc.devRef .tc main_arg13) = m ((c : Thread nD τ).loc main_arg13) :=
  (W2_of_ne m ρ c main_arg13 (by decide)).trans (a13_1 m ρ c)

theorem a14_2 : W2 m ρ c (Proc.devRef .tc main_arg14) = m ((c : Thread nD τ).loc main_arg14) :=
  (W2_of_ne m ρ c main_arg14 (by decide)).trans (a14_1 m ρ c)

theorem a15_2 : W2 m ρ c (Proc.devRef .tc main_arg15) = m ((c : Thread nD τ).loc main_arg15) :=
  (W2_of_ne m ρ c main_arg15 (by decide)).trans (a15_1 m ρ c)

theorem a6_2 : W2 m ρ c (Proc.devRef .tc main_arg6) = m ((c : Thread nD τ).loc main_arg6) :=
  (W2_of_ne m ρ c main_arg6 (by decide)).trans (a6_1 m ρ c)

theorem a7_2 : W2 m ρ c (Proc.devRef .tc main_arg7) = m ((c : Thread nD τ).loc main_arg7) :=
  (W2_of_ne m ρ c main_arg7 (by decide)).trans (a7_1 m ρ c)

theorem src_2 : W2 m ρ c (Proc.devRef .tc main_v1) = val_main_v1 (F := Ideal) (m ((c : Thread nD τ).loc main_arg1)) :=
  (W2_of_ne m ρ c main_v1 (by decide)).trans (src_1 m ρ c)

theorem dst_2 : W2 m ρ c (Proc.devRef .tc main_v3) = val_main_v3 (F := Ideal) (m ((c : Thread nD τ).loc main_arg1)) :=
  (W2_of_ne m ρ c main_v3 (by decide)).trans (dst_1 m ρ c)

theorem dinv_2 : W2 m ρ c (Proc.devRef .tc main_v10) = val_main_v10 (F := Ideal) (m ((c : Thread nD τ).loc main_arg1)) :=
  (W2_of_ne m ρ c main_v10 (by decide)).trans (dinv_1 m ρ c)

theorem dcol_2 : W2 m ρ c (Proc.devRef .tc main_v12) = (shapeCast S100000x1 (mulf (F := Ideal) (s := S100000) (φ := .f32) (val_main_v10 (F := Ideal) (m ((c : Thread nD τ).loc main_arg1))) (val_main_v10 (F := Ideal) (m ((c : Thread nD τ).loc main_arg1)))) shapeCasts_S100000_S100000x1 : FVec Ideal S100000x1 .f32) :=
  (W2_of_ne m ρ c main_v12 (by decide)).trans (dcol_1 m ρ c)

/-- The first kernel's output is the reference's first product. -/
theorem h1_2 : W2 m ρ c (Proc.devRef .tc main_v13) = val_main_v11 (F := Ideal) (m ((c : Thread nD τ).loc main_arg0)) (m ((c : Thread nD τ).loc main_arg2)) :=
  (W2_arr m ρ c 2).trans ((Cert.KernelIdeal.Reg0.final (V1 m ρ) c).trans
    (show RowBlocks.prod (W1 m ρ c (Proc.devRef .tc main_arg0)) (W1 m ρ c (Proc.devRef .tc main_arg2)) = _ from by
      rw [a0_1 m ρ c, a2_1 m ρ c]
      exact (Cert.ReferenceIdeal.Layers.prod1 _ _).symm))

end Cert.Bridge

end
-- ==== Proof.Reg1.lean ====
/-
  Kernel 1 of the program updates a block of 2000 consecutive rows at each of 50 grid points: from the block of aggregated
  messages, the block of products, the block of the column of per-row weights and the six parameter rows it stores
  max(((agg + d·h + b − mean) · rsqrt(var + ε)) · gamma + beta, 0) entry by entry. Read here: point t's blocks are rows 2000·t … of the three tall arrays and the
  whole of each row; what it writes back is that block of rows of the node update of the whole arrays; the 50 blocks fill
  the output, so after the kernel the output array IS the node update of the arrays as the kernel found them.
-/
import proofs.«103837_j2224793059852_1_alg».proof.Proof.Gen.KernelIdeal.Frame
import proofs.«103837_j2224793059852_1_alg».proof.Proof.LibNodeCombine
import Idealize.ShloMosaic.Lib.Pipeline.Value
import Idealize.ShloMosaic.Lib.ValueIdx

noncomputable section

namespace Cert.KernelIdeal.Reg1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three tall inputs and the output are at block (t, 0), every parameter row at (0, 0). -/
theorem idx : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_8.index t (0 : Fin 2) = t.val
    ∧ win1_8.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0 :=
  (by decide +kernel : ∀ t : Fin grid1.N, _)

theorem tlt (t : Fin cfg1.N) : t.val < 50 := lt_of_lt_of_eq t.isLt (N_1 : cfg1.N = 50)

/-- The body's stored value at entry (p, q). -/
theorem pay_apply (d : Vec Ideal S2000x1 .f32) (h : Vec Ideal S2000x128 .f32) (b mu v g be : Vec Ideal S1x128 .f32) (agg : Vec Ideal S2000x128 .f32)
    (p : Fin 2000) (q : Fin 128) :
    k1_pay1 (F := Ideal) d h b mu v g be agg (ix2 p q)
      = NodeCombine.bnrelu (agg (ix2 p q)) (h (ix2 p q)) (d (ix2 p (0 : Fin 1))) (b (ix2 (0 : Fin 1) q)) (mu (ix2 (0 : Fin 1) q))
          (v (ix2 (0 : Fin 1) q)) (g (ix2 (0 : Fin 1) q)) (be (ix2 (0 : Fin 1) q)) 0x3727C5AC#32 0x00000000#32 := by
  unfold k1_pay1
  exact NodeCombine.block_bn_apply 0x3727C5AC#32 0x00000000#32 _ _ _ _ _ d h b mu v g be agg p q

/-- Point t's block of the aggregated messages is rows 2000·t … of the array. -/
theorem agg_blk (c : Dev nD) (t : Fin cfg1.N) (p : Fin 2000) (q : Fin 128) (hr : 2000 * t.val + p.val < 100000) :
    (iblk1 V c 0 t : S2000x128.Idx → EReal) (ix2 p q)
      = (V c main_v41 : S100000x128.Idx → EReal) (ix2 ⟨2000 * t.val + p.val, hr⟩ q) := by
  unfold iblk1
  rw [View.read_apply]
  show V c main_v41 _ = V c main_v41 _
  refine congrArg _ (funext fun a => Fin.ext ?_)
  obtain ⟨ea, eb, -⟩ := idx t
  match a with
  | ⟨0, _⟩ => show win1_0.index t (0 : Fin 2) * 2000 + 1 * p.val = 2000 * t.val + p.val; rw [ea]; omega
  | ⟨1, _⟩ => show win1_0.index t (1 : Fin 2) * 128 + 1 * q.val = q.val; rw [eb]; omega

/-- Point t's block of the products is rows 2000·t … of the array. -/
theorem h_blk (c : Dev nD) (t : Fin cfg1.N) (p : Fin 2000) (q : Fin 128) (hr : 2000 * t.val + p.val < 100000) :
    (iblk1 V c 1 t : S2000x128.Idx → EReal) (ix2 p q)
      = (V c main_v13 : S100000x128.Idx → EReal) (ix2 ⟨2000 * t.val + p.val, hr⟩ q) := by
  unfold iblk1
  rw [View.read_apply]
  show V c main_v13 _ = V c main_v13 _
  refine congrArg _ (funext fun a => Fin.ext ?_)
  obtain ⟨-, -, ea, eb, -⟩ := idx t
  match a with
  | ⟨0, _⟩ => show win1_1.index t (0 : Fin 2) * 2000 + 1 * p.val = 2000 * t.val + p.val; rw [ea]; omega
  | ⟨1, _⟩ => show win1_1.index t (1 : Fin 2) * 128 + 1 * q.val = q.val; rw [eb]; omega

/-- Point t's block of the column of per-row weights is rows 2000·t … of it. -/
theorem d_blk (c : Dev nD) (t : Fin cfg1.N) (p : Fin 2000) (z : Fin 1) (hr : 2000 * t.val + p.val < 100000) :
    (iblk1 V c 2 t : S2000x1.Idx → EReal) (ix2 p z)
      = (V c main_v12 : S100000x1.Idx → EReal) (ix2 ⟨2000 * t.val + p.val, hr⟩ z) := by
  unfold iblk1
  rw [View.read_apply]
  show V c main_v12 _ = V c main_v12 _
  refine congrArg _ (funext fun a => Fin.ext ?_)
  obtain ⟨-, -, -, -, ea, eb, -⟩ := idx t
  match a with
  | ⟨0, _⟩ => show win1_2.index t (0 : Fin 2) * 2000 + 1 * p.val = 2000 * t.val + p.val; rw [ea]; omega
  | ⟨1, _⟩ => show win1_2.index t (1 : Fin 2) * 1 + 1 * z.val = z.val; rw [eb]; omega

/-- Point t's block of parameter row 3 is the whole row. -/
theorem row3_blk (c : Dev nD) (t : Fin cfg1.N) (z : Fin 1) (q : Fin 128) :
    (iblk1 V c 3 t : S1x128.Idx → EReal) (ix2 z q) = (V c main_v42 : S1x128.Idx → EReal) (ix2 z q) := by
  unfold iblk1
  rw [View.read_apply]
  show V c main_v42 _ = V c main_v42 _
  refine congrArg _ (funext fun a => Fin.ext ?_)
  obtain ⟨-, -, -, -, -, -, -, -, ea, eb, -⟩ := idx t
  match a with
  | ⟨0, _⟩ => show win1_3.index t (0 : Fin 2) * 1 + 1 * z.val = z.val; rw [ea]; omega
  | ⟨1, _⟩ => show win1_3.index t (1 : Fin 2) * 128 + 1 * q.val = q.val; rw [eb]; omega

/-- Point t's block of parameter row 4 is the whole row. -/
theorem row4_blk (c : Dev nD) (t : Fin cfg1.N) (z : Fin 1) (q : Fin 128) :
    (iblk1 V c 4 t : S1x128.Idx → EReal) (ix2 z q) = (V c main_v43 : S1x128.Idx → EReal) (ix2 z q) := by
  unfold iblk1
  rw [View.read_apply]
  show V c main_v43 _ = V c main_v43 _
  refine congrArg _ (funext fun a => Fin.ext ?_)
  obtain ⟨-, -, -, -, -, -, -, -, -, -, ea, eb, -⟩ := idx t
  match a with
  | ⟨0, _⟩ => show win1_4.index t (0 : Fin 2) * 1 + 1 * z.val = z.val; rw [ea]; omega
  | ⟨1, _⟩ => show win1_4.index t (1 : Fin 2) * 128 + 1 * q.val = q.val; rw [eb]; omega

/-- Point t's block of parameter row 5 is the whole row. -/
theorem row5_blk (c : Dev nD) (t : Fin cfg1.N) (z : Fin 1) (q : Fin 128) :
    (iblk1 V c 5 t : S1x128.Idx → EReal) (ix2 z q) = (V c main_v44 : S1x128.Idx → EReal) (ix2 z q) := by
  unfold iblk1
  rw [View.read_apply]
  show V c main_v44 _ = V c main_v44 _
  refine congrArg _ (funext fun a => Fin.ext ?_)
  obtain ⟨-, -, -, -, -, -, -, -, -, -, -, -, ea, eb, -⟩ := idx t
  match a with
  | ⟨0, _⟩ => show win1_5.index t (0 : Fin 2) * 1 + 1 * z.val = z.val; rw [ea]; omega
  | ⟨1, _⟩ => show win1_5.index t (1 : Fin 2) * 128 + 1 * q.val = q.val; rw [eb]; omega

/-- Point t's block of parameter row 6 is the whole row. -/
theorem row6_blk (c : Dev nD) (t : Fin cfg1.N) (z : Fin 1) (q : Fin 128) :
    (iblk1 V c 6 t : S1x128.Idx → EReal) (ix2 z q) = (V c main_v45 : S1x128.Idx → EReal) (ix2 z q) := by
  unfold iblk1
  rw [View.read_apply]
  show V c main_v45 _ = V c main_v45 _
  refine congrArg _ (funext fun a => Fin.ext ?_)
  obtain ⟨-, -, -, -, -, -, -, -, -, -, -, -, -, -, ea, eb, -⟩ := idx t
  match a with
  | ⟨0, _⟩ => show win1_6.index t (0 : Fin 2) * 1 + 1 * z.val = z.val; rw [ea]; omega
  | ⟨1, _⟩ => show win1_6.index t (1 : Fin 2) * 128 + 1 * q.val = q.val; rw [eb]; omega

/-- Point t's block of parameter row 7 is the whole row. -/
theorem row7_blk (c : Dev nD) (t : Fin cfg1.N) (z : Fin 1) (q : Fin 128) :
    (iblk1 V c 7 t : S1x128.Idx → EReal) (ix2 z q) = (V c main_v46 : S1x128.Idx → EReal) (ix2 z q) := by
  unfold iblk1
  rw [View.read_apply]
  show V c main_v46 _ = V c main_v46 _
  refine congrArg _ (funext fun a => Fin.ext ?_)
  obtain ⟨-, -, -, -, -, -, -, -, -, -, -, -, -, -, -, -, ea, eb⟩ := idx t
  match a with
  | ⟨0, _⟩ => show win1_7.index t (0 : Fin 2) * 1 + 1 * z.val = z.val; rw [ea]; omega
  | ⟨1, _⟩ => show win1_7.index t (1 : Fin 2) * 128 + 1 * q.val = q.val; rw [eb]; omega

/-- What point t writes back is block t of the node update of the arrays. -/
theorem flushed_eq (c : Dev nD) (t : Fin cfg1.N) :
    (dat1 V c).flushed 8 t
      = ((cfg1.win 8).blk t).view.read (Elt Ideal) (NodeCombine.nodeBN (V c main_v41 : S100000x128.Idx → EReal) (V c main_v13 : S100000x128.Idx → EReal) (V c main_v12 : S100000x1.Idx → EReal)
        (V c main_v42 : S1x128.Idx → EReal) (V c main_v45 : S1x128.Idx → EReal) (V c main_v46 : S1x128.Idx → EReal)
        (V c main_v43 : S1x128.Idx → EReal) (V c main_v44 : S1x128.Idx → EReal) 0x3727C5AC#32 0x00000000#32) := by
  show (cfg1.win 8).cut (grid1.coords t) ((dat1 V c).after 8 t) = _
  rw [after1_8]
  unfold out1_8
  rw [View.canon_unit_zero hz]
  simp only [View.ld_unit_zero (S := S2000x128) hz, View.ld_unit_zero (S := S2000x1) hz, View.ld_unit_zero (S := S1x128) hz]
  funext y
  obtain ⟨p, q, rfl⟩ : ∃ (p : Fin 2000) (q : Fin 128), y = ix2 p q := ⟨y 0, y 1, eq_ix2 y⟩
  have ht := tlt t
  have hr : 2000 * t.val + p.val < 100000 := by have := p.isLt; omega
  rw [View.read_apply]
  have hemb : ((cfg1.win 8).blk t).view.emb (ix2 p q) = (ix2 ⟨2000 * t.val + p.val, hr⟩ q : S100000x128.Idx) := by
    funext a
    apply Fin.ext
    obtain ⟨-, -, -, -, -, -, ea, eb, -⟩ := idx t
    match a with
    | ⟨0, _⟩ => show win1_8.index t (0 : Fin 2) * 2000 + 1 * p.val = 2000 * t.val + p.val; rw [ea]; omega
    | ⟨1, _⟩ => show win1_8.index t (1 : Fin 2) * 128 + 1 * q.val = q.val; rw [eb]; omega
  rw [hemb]
  refine (pay_apply _ _ _ _ _ _ _ _ p q).trans ?_
  rw [NodeCombine.nodeBN_apply]
  rw [agg_blk V c t p q hr, h_blk V c t p q hr, d_blk V c t p 0 hr, row3_blk V c t 0 q, row4_blk V c t 0 q, row5_blk V c t 0 q,
    row6_blk V c t 0 q, row7_blk V c t 0 q]
  rfl

/-- Every row of the output lies in the block of the point that is its quotient by 2000. -/
theorem cover (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  refine ⟨t, flush1_8 t, ?_⟩
  show i ∈ ((View.whole main_v47).slice (win1_8.rect t)).set
  rw [View.set_slice_whole, Rect.mem_set_unit]
  obtain ⟨-, -, -, -, -, -, ea, eb, -⟩ := idx t
  intro a
  match a with
  | ⟨0, _⟩ =>
    show win1_8.index t (0 : Fin 2) * 2000 ≤ (i 0).val ∧ (i 0).val < win1_8.index t (0 : Fin 2) * 2000 + 2000
    rw [ea]; show (i 0).val / 2000 * 2000 ≤ (i 0).val ∧ (i 0).val < (i 0).val / 2000 * 2000 + 2000; omega
  | ⟨1, _⟩ =>
    show win1_8.index t (1 : Fin 2) * 128 ≤ (i 1).val ∧ (i 1).val < win1_8.index t (1 : Fin 2) * 128 + 128
    rw [eb]; omega

/-- After the kernel its output array is the node update of its input arrays as it found them. -/
theorem final (c : Dev nD) :
    (dat1 V c).arrAt 8 cfg1.N
      = NodeCombine.nodeBN (V c main_v41 : S100000x128.Idx → EReal) (V c main_v13 : S100000x128.Idx → EReal) (V c main_v12 : S100000x1.Idx → EReal)
        (V c main_v42 : S1x128.Idx → EReal) (V c main_v45 : S1x128.Idx → EReal) (V c main_v46 : S1x128.Idx → EReal)
        (V c main_v43 : S1x128.Idx → EReal) (V c main_v44 : S1x128.Idx → EReal) 0x3727C5AC#32 0x00000000#32 :=
  (dat1 V c).arrAt_eq_of_cover 8 _ (fun t _ => flushed_eq V c t) (cover)

end Cert.KernelIdeal.Reg1

end
-- ==== Proof.KFold2.lean ====
/-
  The kernel program's buffers, boundary by boundary (second part): the first layer's message passing and node update.
  Between the first two kernels the program gathers the rows of x·W1 along the edges' sources, scales each by the product
  of d at its two ends, and scatter-adds them at the targets, and it stands the bias and the four batch-norm vectors up as
  rows. The second kernel then leaves the normalised node update, which is the reference's first layer.
-/
import proofs.«103837_j2224793059852_1_alg».proof.Proof.KFold1
import proofs.«103837_j2224793059852_1_alg».proof.Proof.Reg1
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Read (val_main_v1 val_main_v3 val_main_v10 val_main_v11 val_main_v39 val_main_v63 val_main_v64 val_main_v92
  val_main_v116 val_main_v117 val_main_v145 val_main_v154)

variable (m : (ℓ : Loc nD τ sig) → Buf (Elt Ideal) ℓ) (ρ : Dev nD → PrngReg) (c : Dev nD)

/-! ## Before the second kernel -/

theorem a4_3 : W3 m ρ c (Proc.devRef .tc main_arg4) = m ((c : Thread nD τ).loc main_arg4) := by
  show StableHlo.after hostOps1 (W2 m ρ c) (Proc.devRef .tc main_arg4) = _
  dsimp only [hostOps1]
  after_results_simp
  exact a4_2 m ρ c

theorem a5_3 : W3 m ρ c (Proc.devRef .tc main_arg5) = m ((c : Thread nD τ).loc main_arg5) := by
  show StableHlo.after hostOps1 (W2 m ρ c) (Proc.devRef .tc main_arg5) = _
  dsimp only [hostOps1]
  after_results_simp
  exact a5_2 m ρ c

theorem a12_3 : W3 m ρ c (Proc.devRef .tc main_arg12) = m ((c : Thread nD τ).loc main_arg12) := by
  show StableHlo.after hostOps1 (W2 m ρ c) (Proc.devRef .tc main_arg12) = _
  dsimp only [hostOps1]
  after_results_simp
  exact a12_2 m ρ c

theorem a13_3 : W3 m ρ c (Proc.devRef .tc main_arg13) = m ((c : Thread nD τ).loc main_arg13) := by
  show StableHlo.after hostOps1 (W2 m ρ c) (Proc.devRef .tc main_arg13) = _
  dsimp only [hostOps1]
  after_results_simp
  exact a13_2 m ρ c

theorem a14_3 : W3 m ρ c (Proc.devRef .tc main_arg14) = m ((c : Thread nD τ).loc main_arg14) := by
  show StableHlo.after hostOps1 (W2 m ρ c) (Proc.devRef .tc main_arg14) = _
  dsimp only [hostOps1]
  after_results_simp
  exact a14_2 m ρ c

theorem a15_3 : W3 m ρ c (Proc.devRef .tc main_arg15) = m ((c : Thread nD τ).loc main_arg15) := by
  show StableHlo.after hostOps1 (W2 m ρ c) (Proc.devRef .tc main_arg15) = _
  dsimp only [hostOps1]
  after_results_simp
  exact a15_2 m ρ c

theorem a6_3 : W3 m ρ c (Proc.devRef .tc main_arg6) = m ((c : Thread nD τ).loc main_arg6) := by
  show StableHlo.after hostOps1 (W2 m ρ c) (Proc.devRef .tc main_arg6) = _
  dsimp only [hostOps1]
  after_results_simp
  exact a6_2 m ρ c

theorem a7_3 : W3 m ρ c (Proc.devRef .tc main_arg7) = m ((c : Thread nD τ).loc main_arg7) := by
  show StableHlo.after hostOps1 (W2 m ρ c) (Proc.devRef .tc main_arg7) = _
  dsimp only [hostOps1]
  after_results_simp
  exact a7_2 m ρ c

theorem src_3 : W3 m ρ c (Proc.devRef .tc main_v1) = val_main_v1 (F := Ideal) (m ((c : Thread nD τ).loc main_arg1)) := by
  show StableHlo.after hostOps1 (W2 m ρ c) (Proc.devRef .tc main_v1) = _
  dsimp only [hostOps1]
  after_results_simp
  exact src_2 m ρ c

theorem dst_3 : W3 m ρ c (Proc.devRef .tc main_v3) = val_main_v3 (F := Ideal) (m ((c : Thread nD τ).loc main_arg1)) := by
  show StableHlo.after hostOps1 (W2 m ρ c) (Proc.devRef .tc main_v3) = _
  dsimp only [hostOps1]
  after_results_simp
  exact dst_2 m ρ c

theorem dinv_3 : W3 m ρ c (Proc.devRef .tc main_v10) = val_main_v10 (F := Ideal) (m ((c : Thread nD τ).loc main_arg1)) := by
  show StableHlo.after hostOps1 (W2 m ρ c) (Proc.devRef .tc main_v10) = _
  dsimp only [hostOps1]
  after_results_simp
  exact dinv_2 m ρ c

theorem dcol_3 : W3 m ρ c (Proc.devRef .tc main_v12) = (shapeCast S100000x1 (mulf (F := Ideal) (s := S100000) (φ := .f32) (val_main_v10 (F := Ideal) (m ((c : Thread nD τ).loc main_arg1))) (val_main_v10 (F := Ideal) (m ((c : Thread nD τ).loc main_arg1)))) shapeCasts_S100000_S100000x1 : FVec Ideal S100000x1 .f32) := by
  show StableHlo.after hostOps1 (W2 m ρ c) (Proc.devRef .tc main_v12) = _
  dsimp only [hostOps1]
  after_results_simp
  exact dcol_2 m ρ c

theorem h1_3 : W3 m ρ c (Proc.devRef .tc main_v13) = val_main_v11 (F := Ideal) (m ((c : Thread nD τ).loc main_arg0)) (m ((c : Thread nD τ).loc main_arg2)) := by
  show StableHlo.after hostOps1 (W2 m ρ c) (Proc.devRef .tc main_v13) = _
  dsimp only [hostOps1]
  after_results_simp
  exact h1_2 m ρ c

/-- The messages aggregated over the edges: the same gathers, products and accumulating scatter the reference applies to
    the same product, so the reference's stage. -/
theorem agg1_3 : W3 m ρ c (Proc.devRef .tc main_v41) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v41) = _
  dsimp only [hostOps1]
  after_results_simp
  rw [h1_2 m ρ c, src_2 m ρ c, dst_2 m ρ c, dinv_2 m ρ c]
  rfl

theorem r42_3 : W3 m ρ c (Proc.devRef .tc main_v42) = shapeCast S1x128 (m ((c : Thread nD τ).loc main_arg3)) shapeCasts_S128_S1x128 := by
  show StableHlo.after hostOps1 (W2 m ρ c) (Proc.devRef .tc main_v42) = _
  dsimp only [hostOps1]
  after_results_simp
  rw [a3_2 m ρ c]
  rfl

theorem r43_3 : W3 m ρ c (Proc.devRef .tc main_v43) = shapeCast S1x128 (m ((c : Thread nD τ).loc main_arg8)) shapeCasts_S128_S1x128 := by
  show StableHlo.after hostOps1 (W2 m ρ c) (Proc.devRef .tc main_v43) = _
  dsimp only [hostOps1]
  after_results_simp
  rw [a8_2 m ρ c]
  rfl

theorem r44_3 : W3 m ρ c (Proc.devRef .tc main_v44) = shapeCast S1x128 (m ((c : Thread nD τ).loc main_arg9)) shapeCasts_S128_S1x128 := by
  show StableHlo.after hostOps1 (W2 m ρ c) (Proc.devRef .tc main_v44) = _
  dsimp only [hostOps1]
  after_results_simp
  rw [a9_2 m ρ c]
  rfl

theorem r45_3 : W3 m ρ c (Proc.devRef .tc main_v45) = shapeCast S1x128 (m ((c : Thread nD τ).loc main_arg10)) shapeCasts_S128_S1x128 := by
  show StableHlo.after hostOps1 (W2 m ρ c) (Proc.devRef .tc main_v45) = _
  dsimp only [hostOps1]
  after_results_simp
  rw [a10_2 m ρ c]
  rfl

theorem r46_3 : W3 m ρ c (Proc.devRef .tc main_v46) = shapeCast S1x128 (m ((c : Thread nD τ).loc main_arg11)) shapeCasts_S128_S1x128 := by
  show StableHlo.after hostOps1 (W2 m ρ c) (Proc.devRef .tc main_v46) = _
  dsimp only [hostOps1]
  after_results_simp
  rw [a11_2 m ρ c]
  rfl

/-! ## After the second kernel -/

theorem a4_4 : W4 m ρ c (Proc.devRef .tc main_arg4) = m ((c : Thread nD τ).loc main_arg4) :=
  (W4_of_ne m ρ c main_arg4 (by decide)).trans (a4_3 m ρ c)

theorem a5_4 : W4 m ρ c (Proc.devRef .tc main_arg5) = m ((c : Thread nD τ).loc main_arg5) :=
  (W4_of_ne m ρ c main_arg5 (by decide)).trans (a5_3 m ρ c)

theorem a12_4 : W4 m ρ c (Proc.devRef .tc main_arg12) = m ((c : Thread nD τ).loc main_arg12) :=
  (W4_of_ne m ρ c main_arg12 (by decide)).trans (a12_3 m ρ c)

theorem a13_4 : W4 m ρ c (Proc.devRef .tc main_arg13) = m ((c : Thread nD τ).loc main_arg13) :=
  (W4_of_ne m ρ c main_arg13 (by decide)).trans (a13_3 m ρ c)

theorem a14_4 : W4 m ρ c (Proc.devRef .tc main_arg14) = m ((c : Thread nD τ).loc main_arg14) :=
  (W4_of_ne m ρ c main_arg14 (by decide)).trans (a14_3 m ρ c)

theorem a15_4 : W4 m ρ c (Proc.devRef .tc main_arg15) = m ((c : Thread nD τ).loc main_arg15) :=
  (W4_of_ne m ρ c main_arg15 (by decide)).trans (a15_3 m ρ c)

theorem a6_4 : W4 m ρ c (Proc.devRef .tc main_arg6) = m ((c : Thread nD τ).loc main_arg6) :=
  (W4_of_ne m ρ c main_arg6 (by decide)).trans (a6_3 m ρ c)

theorem a7_4 : W4 m ρ c (Proc.devRef .tc main_arg7) = m ((c : Thread nD τ).loc main_arg7) :=
  (W4_of_ne m ρ c main_arg7 (by decide)).trans (a7_3 m ρ c)

theorem src_4 : W4 m ρ c (Proc.devRef .tc main_v1) = val_main_v1 (F := Ideal) (m ((c : Thread nD τ).loc main_arg1)) :=
  (W4_of_ne m ρ c main_v1 (by decide)).trans (src_3 m ρ c)

theorem dst_4 : W4 m ρ c (Proc.devRef .tc main_v3) = val_main_v3 (F := Ideal) (m ((c : Thread nD τ).loc main_arg1)) :=
  (W4_of_ne m ρ c main_v3 (by decide)).trans (dst_3 m ρ c)

theorem dinv_4 : W4 m ρ c (Proc.devRef .tc main_v10) = val_main_v10 (F := Ideal) (m ((c : Thread nD τ).loc main_arg1)) :=
  (W4_of_ne m ρ c main_v10 (by decide)).trans (dinv_3 m ρ c)

theorem dcol_4 : W4 m ρ c (Proc.devRef .tc main_v12) = (shapeCast S100000x1 (mulf (F := Ideal) (s := S100000) (φ := .f32) (val_main_v10 (F := Ideal) (m ((c : Thread nD τ).loc main_arg1))) (val_main_v10 (F := Ideal) (m ((c : Thread nD τ).loc main_arg1)))) shapeCasts_S100000_S100000x1 : FVec Ideal S100000x1 .f32) :=
  (W4_arr m ρ c 2).trans (((dat1 (V3 m ρ) c).arrAt_in 2 rfl _).trans
    ((A_eq1 (V3 m ρ) c 2).trans (dcol_3 m ρ c)))

/-- The second kernel's output is the reference's first layer. -/
theorem o1_4 : W4 m ρ c (Proc.devRef .tc main_v47) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) :=
  (W4_arr m ρ c 8).trans ((Cert.KernelIdeal.Reg1.final (V3 m ρ) c).trans
    (show NodeCombine.nodeBN (W3 m ρ c (Proc.devRef .tc main_v41)) (W3 m ρ c (Proc.devRef .tc main_v13)) (W3 m ρ c (Proc.devRef .tc main_v12))
        (W3 m ρ c (Proc.devRef .tc main_v42)) (W3 m ρ c (Proc.devRef .tc main_v45)) (W3 m ρ c (Proc.devRef .tc main_v46))
        (W3 m ρ c (Proc.devRef .tc main_v43)) (W3 m ρ c (Proc.devRef .tc main_v44)) 0x3727C5AC#32 0x00000000#32 = _ from by
      rw [agg1_3 m ρ c, h1_3 m ρ c, dcol_3 m ρ c, r42_3 m ρ c, r45_3 m ρ c, r46_3 m ρ c, r43_3 m ρ c, r44_3 m ρ c]
      exact (Cert.ReferenceIdeal.Layers.out1 _ _ _ _ _ _ _ _ _ _).symm))

end Cert.Bridge

end
-- ==== Proof.Reg2.lean ====
/-
  Kernel 2 of the program multiplies a block of 2000 consecutive rows of its left matrix by the whole right matrix at each
  of 50 grid points and writes the block of products back. Read here: point t's blocks are rows 2000·t … 2000·t + 1999 of
  the left matrix and the whole right matrix; what it writes back is that block of rows of the plain matrix product; the 50
  blocks fill the output, so after the kernel the output array IS the product of the two arrays as the kernel found them.
-/
import proofs.«103837_j2224793059852_1_alg».proof.Proof.Gen.KernelIdeal.Frame
import proofs.«103837_j2224793059852_1_alg».proof.Proof.LibRowBlocks
import Idealize.ShloMosaic.Lib.Pipeline.Value
import Idealize.ShloMosaic.Lib.ValueIdx

noncomputable section

namespace Cert.KernelIdeal.Reg2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left matrix's and the output's block index is (t, 0), the right matrix's (0, 0). -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem tlt (t : Fin cfg2.N) : t.val < 50 := lt_of_lt_of_eq t.isLt (N_2 : cfg2.N = 50)

/-- The body's stored value at entry (p, q): the sum over j of x(p, j) · w(j, q). -/
theorem pay_apply (x : Vec Ideal S2000x128 .f32) (w : Vec Ideal S128x128 .f32) (p : Fin 2000) (q : Fin 128) :
    k2_pay1 (F := Ideal) x w (ix2 p q) = ∑ j : Fin 128, x (ix2 p j) * w (ix2 j q) := by
  unfold k2_pay1
  exact RowBlocks.matmul_cast_trunc_apply _ rfl _ _ x w p q

/-- Point t's block of the left matrix is rows 2000·t … of the array. -/
theorem x_blk (c : Dev nD) (t : Fin cfg2.N) (p : Fin 2000) (j : Fin 128) (hr : 2000 * t.val + p.val < 100000) :
    (iblk2 V c 0 t : S2000x128.Idx → EReal) (ix2 p j)
      = (V c main_v47 : S100000x128.Idx → EReal) (ix2 ⟨2000 * t.val + p.val, hr⟩ j) := by
  unfold iblk2
  rw [View.read_apply]
  show V c main_v47 _ = V c main_v47 _
  refine congrArg _ (funext fun a => Fin.ext ?_)
  obtain ⟨e0, e1, -⟩ := idx t
  match a with
  | ⟨0, _⟩ => show win2_0.index t (0 : Fin 2) * 2000 + 1 * p.val = 2000 * t.val + p.val; rw [e0]; omega
  | ⟨1, _⟩ => show win2_0.index t (1 : Fin 2) * 128 + 1 * j.val = j.val; rw [e1]; omega

/-- Point t's block of the right matrix is the whole array. -/
theorem w_blk (c : Dev nD) (t : Fin cfg2.N) (j : Fin 128) (q : Fin 128) :
    (iblk2 V c 1 t : S128x128.Idx → EReal) (ix2 j q) = (V c main_arg4 : S128x128.Idx → EReal) (ix2 j q) := by
  unfold iblk2
  rw [View.read_apply]
  show V c main_arg4 _ = V c main_arg4 _
  refine congrArg _ (funext fun a => Fin.ext ?_)
  obtain ⟨-, -, e2, e3, -⟩ := idx t
  match a with
  | ⟨0, _⟩ => show win2_1.index t (0 : Fin 2) * 128 + 1 * j.val = j.val; rw [e2]; omega
  | ⟨1, _⟩ => show win2_1.index t (1 : Fin 2) * 128 + 1 * q.val = q.val; rw [e3]; omega

/-- What point t writes back is block t of the product of the two arrays. -/
theorem flushed_eq (c : Dev nD) (t : Fin cfg2.N) :
    (dat2 V c).flushed 2 t
      = ((cfg2.win 2).blk t).view.read (Elt Ideal) (RowBlocks.prod (V c main_v47 : S100000x128.Idx → EReal) (V c main_arg4 : S128x128.Idx → EReal)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  funext y
  obtain ⟨p, q, rfl⟩ : ∃ (p : Fin 2000) (q : Fin 128), y = ix2 p q := ⟨y 0, y 1, eq_ix2 y⟩
  have ht := tlt t
  have hr : 2000 * t.val + p.val < 100000 := by have := p.isLt; omega
  rw [View.read_apply]
  have hemb : ((cfg2.win 2).blk t).view.emb (ix2 p q) = (ix2 ⟨2000 * t.val + p.val, hr⟩ q : S100000x128.Idx) := by
    funext a
    apply Fin.ext
    obtain ⟨-, -, -, -, e4, e5⟩ := idx t
    match a with
    | ⟨0, _⟩ => show win2_2.index t (0 : Fin 2) * 2000 + 1 * p.val = 2000 * t.val + p.val; rw [e4]; omega
    | ⟨1, _⟩ => show win2_2.index t (1 : Fin 2) * 128 + 1 * q.val = q.val; rw [e5]; omega
  rw [hemb]
  refine (pay_apply _ _ p q).trans ?_
  rw [RowBlocks.prod_apply]
  exact Finset.sum_congr rfl fun j _ => by rw [x_blk V c t p j hr, w_blk V c t j q]

/-- Every row of the output lies in the block of the point that is its quotient by 2000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 50 := N_2
  let t : Fin cfg2.N := ⟨(i 0).val / 2000, by rw [hN]; omega⟩
  refine ⟨t, flush2_2 t, ?_⟩
  show i ∈ ((View.whole main_v48).slice (win2_2.rect t)).set
  rw [View.set_slice_whole, Rect.mem_set_unit]
  obtain ⟨-, -, -, -, e4, e5⟩ := idx t
  intro a
  match a with
  | ⟨0, _⟩ =>
    show win2_2.index t (0 : Fin 2) * 2000 ≤ (i 0).val ∧ (i 0).val < win2_2.index t (0 : Fin 2) * 2000 + 2000
    rw [e4]; show (i 0).val / 2000 * 2000 ≤ (i 0).val ∧ (i 0).val < (i 0).val / 2000 * 2000 + 2000; omega
  | ⟨1, _⟩ =>
    show win2_2.index t (1 : Fin 2) * 128 ≤ (i 1).val ∧ (i 1).val < win2_2.index t (1 : Fin 2) * 128 + 128
    rw [e5]; omega

/-- After the kernel its output array is the product of its two input arrays as it found them. -/
theorem final (c : Dev nD) :
    (dat2 V c).arrAt 2 cfg2.N = RowBlocks.prod (V c main_v47 : S100000x128.Idx → EReal) (V c main_arg4 : S128x128.Idx → EReal) :=
  (dat2 V c).arrAt_eq_of_cover 2 _ (fun t _ => flushed_eq V c t) (cover)

end Cert.KernelIdeal.Reg2

end
-- ==== Proof.Reg3.lean ====
/-
  Kernel 3 of the program updates a block of 2000 consecutive rows at each of 50 grid points: from the block of aggregated
  messages, the block of products, the block of the column of per-row weights and the six parameter rows it stores
  max(((agg + d·h + b − mean) · rsqrt(var + ε)) · gamma + beta, 0) entry by entry. Read here: point t's blocks are rows 2000·t … of the three tall arrays and the
  whole of each row; what it writes back is that block of rows of the node update of the whole arrays; the 50 blocks fill
  the output, so after the kernel the output array IS the node update of the arrays as the kernel found them.
-/
import proofs.«103837_j2224793059852_1_alg».proof.Proof.Gen.KernelIdeal.Frame
import proofs.«103837_j2224793059852_1_alg».proof.Proof.LibNodeCombine
import Idealize.ShloMosaic.Lib.Pipeline.Value
import Idealize.ShloMosaic.Lib.ValueIdx

noncomputable section

namespace Cert.KernelIdeal.Reg3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three tall inputs and the output are at block (t, 0), every parameter row at (0, 0). -/
theorem idx : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_8.index t (0 : Fin 2) = t.val
    ∧ win3_8.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0 :=
  (by decide +kernel : ∀ t : Fin grid3.N, _)

theorem tlt (t : Fin cfg3.N) : t.val < 50 := lt_of_lt_of_eq t.isLt (N_3 : cfg3.N = 50)

/-- The body's stored value at entry (p, q). -/
theorem pay_apply (d : Vec Ideal S2000x1 .f32) (h : Vec Ideal S2000x128 .f32) (b mu v g be : Vec Ideal S1x128 .f32) (agg : Vec Ideal S2000x128 .f32)
    (p : Fin 2000) (q : Fin 128) :
    k3_pay1 (F := Ideal) d h b mu v g be agg (ix2 p q)
      = NodeCombine.bnrelu (agg (ix2 p q)) (h (ix2 p q)) (d (ix2 p (0 : Fin 1))) (b (ix2 (0 : Fin 1) q)) (mu (ix2 (0 : Fin 1) q))
          (v (ix2 (0 : Fin 1) q)) (g (ix2 (0 : Fin 1) q)) (be (ix2 (0 : Fin 1) q)) 0x3727C5AC#32 0x00000000#32 := by
  unfold k3_pay1
  exact NodeCombine.block_bn_apply 0x3727C5AC#32 0x00000000#32 _ _ _ _ _ d h b mu v g be agg p q

/-- Point t's block of the aggregated messages is rows 2000·t … of the array. -/
theorem agg_blk (c : Dev nD) (t : Fin cfg3.N) (p : Fin 2000) (q : Fin 128) (hr : 2000 * t.val + p.val < 100000) :
    (iblk3 V c 0 t : S2000x128.Idx → EReal) (ix2 p q)
      = (V c main_v76 : S100000x128.Idx → EReal) (ix2 ⟨2000 * t.val + p.val, hr⟩ q) := by
  unfold iblk3
  rw [View.read_apply]
  show V c main_v76 _ = V c main_v76 _
  refine congrArg _ (funext fun a => Fin.ext ?_)
  obtain ⟨ea, eb, -⟩ := idx t
  match a with
  | ⟨0, _⟩ => show win3_0.index t (0 : Fin 2) * 2000 + 1 * p.val = 2000 * t.val + p.val; rw [ea]; omega
  | ⟨1, _⟩ => show win3_0.index t (1 : Fin 2) * 128 + 1 * q.val = q.val; rw [eb]; omega

/-- Point t's block of the products is rows 2000·t … of the array. -/
theorem h_blk (c : Dev nD) (t : Fin cfg3.N) (p : Fin 2000) (q : Fin 128) (hr : 2000 * t.val + p.val < 100000) :
    (iblk3 V c 1 t : S2000x128.Idx → EReal) (ix2 p q)
      = (V c main_v48 : S100000x128.Idx → EReal) (ix2 ⟨2000 * t.val + p.val, hr⟩ q) := by
  unfold iblk3
  rw [View.read_apply]
  show V c main_v48 _ = V c main_v48 _
  refine congrArg _ (funext fun a => Fin.ext ?_)
  obtain ⟨-, -, ea, eb, -⟩ := idx t
  match a with
  | ⟨0, _⟩ => show win3_1.index t (0 : Fin 2) * 2000 + 1 * p.val = 2000 * t.val + p.val; rw [ea]; omega
  | ⟨1, _⟩ => show win3_1.index t (1 : Fin 2) * 128 + 1 * q.val = q.val; rw [eb]; omega

/-- Point t's block of the column of per-row weights is rows 2000·t … of it. -/
theorem d_blk (c : Dev nD) (t : Fin cfg3.N) (p : Fin 2000) (z : Fin 1) (hr : 2000 * t.val + p.val < 100000) :
    (iblk3 V c 2 t : S2000x1.Idx → EReal) (ix2 p z)
      = (V c main_v12 : S100000x1.Idx → EReal) (ix2 ⟨2000 * t.val + p.val, hr⟩ z) := by
  unfold iblk3
  rw [View.read_apply]
  show V c main_v12 _ = V c main_v12 _
  refine congrArg _ (funext fun a => Fin.ext ?_)
  obtain ⟨-, -, -, -, ea, eb, -⟩ := idx t
  match a with
  | ⟨0, _⟩ => show win3_2.index t (0 : Fin 2) * 2000 + 1 * p.val = 2000 * t.val + p.val; rw [ea]; omega
  | ⟨1, _⟩ => show win3_2.index t (1 : Fin 2) * 1 + 1 * z.val = z.val; rw [eb]; omega

/-- Point t's block of parameter row 3 is the whole row. -/
theorem row3_blk (c : Dev nD) (t : Fin cfg3.N) (z : Fin 1) (q : Fin 128) :
    (iblk3 V c 3 t : S1x128.Idx → EReal) (ix2 z q) = (V c main_v77 : S1x128.Idx → EReal) (ix2 z q) := by
  unfold iblk3
  rw [View.read_apply]
  show V c main_v77 _ = V c main_v77 _
  refine congrArg _ (funext fun a => Fin.ext ?_)
  obtain ⟨-, -, -, -, -, -, -, -, ea, eb, -⟩ := idx t
  match a with
  | ⟨0, _⟩ => show win3_3.index t (0 : Fin 2) * 1 + 1 * z.val = z.val; rw [ea]; omega
  | ⟨1, _⟩ => show win3_3.index t (1 : Fin 2) * 128 + 1 * q.val = q.val; rw [eb]; omega

/-- Point t's block of parameter row 4 is the whole row. -/
theorem row4_blk (c : Dev nD) (t : Fin cfg3.N) (z : Fin 1) (q : Fin 128) :
    (iblk3 V c 4 t : S1x128.Idx → EReal) (ix2 z q) = (V c main_v78 : S1x128.Idx → EReal) (ix2 z q) := by
  unfold iblk3
  rw [View.read_apply]
  show V c main_v78 _ = V c main_v78 _
  refine congrArg _ (funext fun a => Fin.ext ?_)
  obtain ⟨-, -, -, -, -, -, -, -, -, -, ea, eb, -⟩ := idx t
  match a with
  | ⟨0, _⟩ => show win3_4.index t (0 : Fin 2) * 1 + 1 * z.val = z.val; rw [ea]; omega
  | ⟨1, _⟩ => show win3_4.index t (1 : Fin 2) * 128 + 1 * q.val = q.val; rw [eb]; omega

/-- Point t's block of parameter row 5 is the whole row. -/
theorem row5_blk (c : Dev nD) (t : Fin cfg3.N) (z : Fin 1) (q : Fin 128) :
    (iblk3 V c 5 t : S1x128.Idx → EReal) (ix2 z q) = (V c main_v79 : S1x128.Idx → EReal) (ix2 z q) := by
  unfold iblk3
  rw [View.read_apply]
  show V c main_v79 _ = V c main_v79 _
  refine congrArg _ (funext fun a => Fin.ext ?_)
  obtain ⟨-, -, -, -, -, -, -, -, -, -, -, -, ea, eb, -⟩ := idx t
  match a with
  | ⟨0, _⟩ => show win3_5.index t (0 : Fin 2) * 1 + 1 * z.val = z.val; rw [ea]; omega
  | ⟨1, _⟩ => show win3_5.index t (1 : Fin 2) * 128 + 1 * q.val = q.val; rw [eb]; omega

/-- Point t's block of parameter row 6 is the whole row. -/
theorem row6_blk (c : Dev nD) (t : Fin cfg3.N) (z : Fin 1) (q : Fin 128) :
    (iblk3 V c 6 t : S1x128.Idx → EReal) (ix2 z q) = (V c main_v80 : S1x128.Idx → EReal) (ix2 z q) := by
  unfold iblk3
  rw [View.read_apply]
  show V c main_v80 _ = V c main_v80 _
  refine congrArg _ (funext fun a => Fin.ext ?_)
  obtain ⟨-, -, -, -, -, -, -, -, -, -, -, -, -, -, ea, eb, -⟩ := idx t
  match a with
  | ⟨0, _⟩ => show win3_6.index t (0 : Fin 2) * 1 + 1 * z.val = z.val; rw [ea]; omega
  | ⟨1, _⟩ => show win3_6.index t (1 : Fin 2) * 128 + 1 * q.val = q.val; rw [eb]; omega

/-- Point t's block of parameter row 7 is the whole row. -/
theorem row7_blk (c : Dev nD) (t : Fin cfg3.N) (z : Fin 1) (q : Fin 128) :
    (iblk3 V c 7 t : S1x128.Idx → EReal) (ix2 z q) = (V c main_v81 : S1x128.Idx → EReal) (ix2 z q) := by
  unfold iblk3
  rw [View.read_apply]
  show V c main_v81 _ = V c main_v81 _
  refine congrArg _ (funext fun a => Fin.ext ?_)
  obtain ⟨-, -, -, -, -, -, -, -, -, -, -, -, -, -, -, -, ea, eb⟩ := idx t
  match a with
  | ⟨0, _⟩ => show win3_7.index t (0 : Fin 2) * 1 + 1 * z.val = z.val; rw [ea]; omega
  | ⟨1, _⟩ => show win3_7.index t (1 : Fin 2) * 128 + 1 * q.val = q.val; rw [eb]; omega

/-- What point t writes back is block t of the node update of the arrays. -/
theorem flushed_eq (c : Dev nD) (t : Fin cfg3.N) :
    (dat3 V c).flushed 8 t
      = ((cfg3.win 8).blk t).view.read (Elt Ideal) (NodeCombine.nodeBN (V c main_v76 : S100000x128.Idx → EReal) (V c main_v48 : S100000x128.Idx → EReal) (V c main_v12 : S100000x1.Idx → EReal)
        (V c main_v77 : S1x128.Idx → EReal) (V c main_v80 : S1x128.Idx → EReal) (V c main_v81 : S1x128.Idx → EReal)
        (V c main_v78 : S1x128.Idx → EReal) (V c main_v79 : S1x128.Idx → EReal) 0x3727C5AC#32 0x00000000#32) := by
  show (cfg3.win 8).cut (grid3.coords t) ((dat3 V c).after 8 t) = _
  rw [after3_8]
  unfold out3_8
  rw [View.canon_unit_zero hz]
  simp only [View.ld_unit_zero (S := S2000x128) hz, View.ld_unit_zero (S := S2000x1) hz, View.ld_unit_zero (S := S1x128) hz]
  funext y
  obtain ⟨p, q, rfl⟩ : ∃ (p : Fin 2000) (q : Fin 128), y = ix2 p q := ⟨y 0, y 1, eq_ix2 y⟩
  have ht := tlt t
  have hr : 2000 * t.val + p.val < 100000 := by have := p.isLt; omega
  rw [View.read_apply]
  have hemb : ((cfg3.win 8).blk t).view.emb (ix2 p q) = (ix2 ⟨2000 * t.val + p.val, hr⟩ q : S100000x128.Idx) := by
    funext a
    apply Fin.ext
    obtain ⟨-, -, -, -, -, -, ea, eb, -⟩ := idx t
    match a with
    | ⟨0, _⟩ => show win3_8.index t (0 : Fin 2) * 2000 + 1 * p.val = 2000 * t.val + p.val; rw [ea]; omega
    | ⟨1, _⟩ => show win3_8.index t (1 : Fin 2) * 128 + 1 * q.val = q.val; rw [eb]; omega
  rw [hemb]
  refine (pay_apply _ _ _ _ _ _ _ _ p q).trans ?_
  rw [NodeCombine.nodeBN_apply]
  rw [agg_blk V c t p q hr, h_blk V c t p q hr, d_blk V c t p 0 hr, row3_blk V c t 0 q, row4_blk V c t 0 q, row5_blk V c t 0 q,
    row6_blk V c t 0 q, row7_blk V c t 0 q]
  rfl

/-- Every row of the output lies in the block of the point that is its quotient by 2000. -/
theorem cover (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  have hN : cfg3.N = 50 := N_3
  let t : Fin cfg3.N := ⟨(i 0).val / 2000, by rw [hN]; omega⟩
  refine ⟨t, flush3_8 t, ?_⟩
  show i ∈ ((View.whole main_v82).slice (win3_8.rect t)).set
  rw [View.set_slice_whole, Rect.mem_set_unit]
  obtain ⟨-, -, -, -, -, -, ea, eb, -⟩ := idx t
  intro a
  match a with
  | ⟨0, _⟩ =>
    show win3_8.index t (0 : Fin 2) * 2000 ≤ (i 0).val ∧ (i 0).val < win3_8.index t (0 : Fin 2) * 2000 + 2000
    rw [ea]; show (i 0).val / 2000 * 2000 ≤ (i 0).val ∧ (i 0).val < (i 0).val / 2000 * 2000 + 2000; omega
  | ⟨1, _⟩ =>
    show win3_8.index t (1 : Fin 2) * 128 ≤ (i 1).val ∧ (i 1).val < win3_8.index t (1 : Fin 2) * 128 + 128
    rw [eb]; omega

/-- After the kernel its output array is the node update of its input arrays as it found them. -/
theorem final (c : Dev nD) :
    (dat3 V c).arrAt 8 cfg3.N
      = NodeCombine.nodeBN (V c main_v76 : S100000x128.Idx → EReal) (V c main_v48 : S100000x128.Idx → EReal) (V c main_v12 : S100000x1.Idx → EReal)
        (V c main_v77 : S1x128.Idx → EReal) (V c main_v80 : S1x128.Idx → EReal) (V c main_v81 : S1x128.Idx → EReal)
        (V c main_v78 : S1x128.Idx → EReal) (V c main_v79 : S1x128.Idx → EReal) 0x3727C5AC#32 0x00000000#32 :=
  (dat3 V c).arrAt_eq_of_cover 8 _ (fun t _ => flushed_eq V c t) (cover)

end Cert.KernelIdeal.Reg3

end
-- ==== Proof.KFold3.lean ====
/-
  The kernel program's buffers, boundary by boundary (third part): the second layer. The third kernel multiplies the first
  layer's output by W2; the stretch after it passes messages exactly as before and stands the second bias and batch-norm
  vectors up as rows; the fourth kernel leaves the normalised node update, which is the reference's second layer.
-/
import proofs.«103837_j2224793059852_1_alg».proof.Proof.KFold2
import proofs.«103837_j2224793059852_1_alg».proof.Proof.Reg2
import proofs.«103837_j2224793059852_1_alg».proof.Proof.Reg3
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Read (val_main_v1 val_main_v3 val_main_v10 val_main_v11 val_main_v39 val_main_v63 val_main_v64 val_main_v92
  val_main_v116 val_main_v117 val_main_v145 val_main_v154)

variable (m : (ℓ : Loc nD τ sig) → Buf (Elt Ideal) ℓ) (ρ : Dev nD → PrngReg) (c : Dev nD)

/-! ## After the third kernel -/

theorem a5_5 : W5 m ρ c (Proc.devRef .tc main_arg5) = m ((c : Thread nD τ).loc main_arg5) :=
  (W5_of_ne m ρ c main_arg5 (by decide)).trans (a5_4 m ρ c)

theorem a12_5 : W5 m ρ c (Proc.devRef .tc main_arg12) = m ((c : Thread nD τ).loc main_arg12) :=
  (W5_of_ne m ρ c main_arg12 (by decide)).trans (a12_4 m ρ c)

theorem a13_5 : W5 m ρ c (Proc.devRef .tc main_arg13) = m ((c : Thread nD τ).loc main_arg13) :=
  (W5_of_ne m ρ c main_arg13 (by decide)).trans (a13_4 m ρ c)

theorem a14_5 : W5 m ρ c (Proc.devRef .tc main_arg14) = m ((c : Thread nD τ).loc main_arg14) :=
  (W5_of_ne m ρ c main_arg14 (by decide)).trans (a14_4 m ρ c)

theorem a15_5 : W5 m ρ c (Proc.devRef .tc main_arg15) = m ((c : Thread nD τ).loc main_arg15) :=
  (W5_of_ne m ρ c main_arg15 (by decide)).trans (a15_4 m ρ c)

theorem a6_5 : W5 m ρ c (Proc.devRef .tc main_arg6) = m ((c : Thread nD τ).loc main_arg6) :=
  (W5_of_ne m ρ c main_arg6 (by decide)).trans (a6_4 m ρ c)

theorem a7_5 : W5 m ρ c (Proc.devRef .tc main_arg7) = m ((c : Thread nD τ).loc main_arg7) :=
  (W5_of_ne m ρ c main_arg7 (by decide)).trans (a7_4 m ρ c)

theorem src_5 : W5 m ρ c (Proc.devRef .tc main_v1) = val_main_v1 (F := Ideal) (m ((c : Thread nD τ).loc main_arg1)) :=
  (W5_of_ne m ρ c main_v1 (by decide)).trans (src_4 m ρ c)

theorem dst_5 : W5 m ρ c (Proc.devRef .tc main_v3) = val_main_v3 (F := Ideal) (m ((c : Thread nD τ).loc main_arg1)) :=
  (W5_of_ne m ρ c main_v3 (by decide)).trans (dst_4 m ρ c)

theorem dinv_5 : W5 m ρ c (Proc.devRef .tc main_v10) = val_main_v10 (F := Ideal) (m ((c : Thread nD τ).loc main_arg1)) :=
  (W5_of_ne m ρ c main_v10 (by decide)).trans (dinv_4 m ρ c)

theorem dcol_5 : W5 m ρ c (Proc.devRef .tc main_v12) = (shapeCast S100000x1 (mulf (F := Ideal) (s := S100000) (φ := .f32) (val_main_v10 (F := Ideal) (m ((c : Thread nD τ).loc main_arg1))) (val_main_v10 (F := Ideal) (m ((c : Thread nD τ).loc main_arg1)))) shapeCasts_S100000_S100000x1 : FVec Ideal S100000x1 .f32) :=
  (W5_of_ne m ρ c main_v12 (by decide)).trans (dcol_4 m ρ c)

/-- The third kernel's output is the reference's second product. -/
theorem h2_5 : W5 m ρ c (Proc.devRef .tc main_v48) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) :=
  (W5_arr m ρ c 2).trans ((Cert.KernelIdeal.Reg2.final (V4 m ρ) c).trans
    (show RowBlocks.prod (W4 m ρ c (Proc.devRef .tc main_v47)) (W4 m ρ c (Proc.devRef .tc main_arg4)) = _ from by
      rw [o1_4 m ρ c, a4_4 m ρ c]
      exact (Cert.ReferenceIdeal.Layers.prod2 _ _ _ _ _ _ _ _ _).symm))

/-! ## Before the fourth kernel -/

theorem a6_6 : W6 m ρ c (Proc.devRef .tc main_arg6) = m ((c : Thread nD τ).loc main_arg6) := by
  show StableHlo.after hostOps3 (W5 m ρ c) (Proc.devRef .tc main_arg6) = _
  dsimp only [hostOps3]
  after_results_simp
  exact a6_5 m ρ c

theorem a7_6 : W6 m ρ c (Proc.devRef .tc main_arg7) = m ((c : Thread nD τ).loc main_arg7) := by
  show StableHlo.after hostOps3 (W5 m ρ c) (Proc.devRef .tc main_arg7) = _
  dsimp only [hostOps3]
  after_results_simp
  exact a7_5 m ρ c

theorem src_6 : W6 m ρ c (Proc.devRef .tc main_v1) = val_main_v1 (F := Ideal) (m ((c : Thread nD τ).loc main_arg1)) := by
  show StableHlo.after hostOps3 (W5 m ρ c) (Proc.devRef .tc main_v1) = _
  dsimp only [hostOps3]
  after_results_simp
  exact src_5 m ρ c

theorem dst_6 : W6 m ρ c (Proc.devRef .tc main_v3) = val_main_v3 (F := Ideal) (m ((c : Thread nD τ).loc main_arg1)) := by
  show StableHlo.after hostOps3 (W5 m ρ c) (Proc.devRef .tc main_v3) = _
  dsimp only [hostOps3]
  after_results_simp
  exact dst_5 m ρ c

theorem dinv_6 : W6 m ρ c (Proc.devRef .tc main_v10) = val_main_v10 (F := Ideal) (m ((c : Thread nD τ).loc main_arg1)) := by
  show StableHlo.after hostOps3 (W5 m ρ c) (Proc.devRef .tc main_v10) = _
  dsimp only [hostOps3]
  after_results_simp
  exact dinv_5 m ρ c

theorem dcol_6 : W6 m ρ c (Proc.devRef .tc main_v12) = (shapeCast S100000x1 (mulf (F := Ideal) (s := S100000) (φ := .f32) (val_main_v10 (F := Ideal) (m ((c : Thread nD τ).loc main_arg1))) (val_main_v10 (F := Ideal) (m ((c : Thread nD τ).loc main_arg1)))) shapeCasts_S100000_S100000x1 : FVec Ideal S100000x1 .f32) := by
  show StableHlo.after hostOps3 (W5 m ρ c) (Proc.devRef .tc main_v12) = _
  dsimp only [hostOps3]
  after_results_simp
  exact dcol_5 m ρ c

theorem h2_6 : W6 m ρ c (Proc.devRef .tc main_v48) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := by
  show StableHlo.after hostOps3 (W5 m ρ c) (Proc.devRef .tc main_v48) = _
  dsimp only [hostOps3]
  after_results_simp
  exact h2_5 m ρ c

/-- The messages aggregated over the edges: the same gathers, products and accumulating scatter the reference applies to
    the same product, so the reference's stage. -/
theorem agg2_6 : W6 m ρ c (Proc.devRef .tc main_v76) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) := by
  show StableHlo.after hostOps3 (W5 m ρ c) (Proc.devRef .tc main_v76) = _
  dsimp only [hostOps3]
  after_results_simp
  rw [h2_5 m ρ c, src_5 m ρ c, dst_5 m ρ c, dinv_5 m ρ c]
  rfl

theorem r77_6 : W6 m ρ c (Proc.devRef .tc main_v77) = shapeCast S1x128 (m ((c : Thread nD τ).loc main_arg5)) shapeCasts_S128_S1x128 := by
  show StableHlo.after hostOps3 (W5 m ρ c) (Proc.devRef .tc main_v77) = _
  dsimp only [hostOps3]
  after_results_simp
  rw [a5_5 m ρ c]
  rfl

theorem r78_6 : W6 m ρ c (Proc.devRef .tc main_v78) = shapeCast S1x128 (m ((c : Thread nD τ).loc main_arg12)) shapeCasts_S128_S1x128 := by
  show StableHlo.after hostOps3 (W5 m ρ c) (Proc.devRef .tc main_v78) = _
  dsimp only [hostOps3]
  after_results_simp
  rw [a12_5 m ρ c]
  rfl

theorem r79_6 : W6 m ρ c (Proc.devRef .tc main_v79) = shapeCast S1x128 (m ((c : Thread nD τ).loc main_arg13)) shapeCasts_S128_S1x128 := by
  show StableHlo.after hostOps3 (W5 m ρ c) (Proc.devRef .tc main_v79) = _
  dsimp only [hostOps3]
  after_results_simp
  rw [a13_5 m ρ c]
  rfl

theorem r80_6 : W6 m ρ c (Proc.devRef .tc main_v80) = shapeCast S1x128 (m ((c : Thread nD τ).loc main_arg14)) shapeCasts_S128_S1x128 := by
  show StableHlo.after hostOps3 (W5 m ρ c) (Proc.devRef .tc main_v80) = _
  dsimp only [hostOps3]
  after_results_simp
  rw [a14_5 m ρ c]
  rfl

theorem r81_6 : W6 m ρ c (Proc.devRef .tc main_v81) = shapeCast S1x128 (m ((c : Thread nD τ).loc main_arg15)) shapeCasts_S128_S1x128 := by
  show StableHlo.after hostOps3 (W5 m ρ c) (Proc.devRef .tc main_v81) = _
  dsimp only [hostOps3]
  after_results_simp
  rw [a15_5 m ρ c]
  rfl

/-! ## After the fourth kernel -/

theorem a6_7 : W7 m ρ c (Proc.devRef .tc main_arg6) = m ((c : Thread nD τ).loc main_arg6) :=
  (W7_of_ne m ρ c main_arg6 (by decide)).trans (a6_6 m ρ c)

theorem a7_7 : W7 m ρ c (Proc.devRef .tc main_arg7) = m ((c : Thread nD τ).loc main_arg7) :=
  (W7_of_ne m ρ c main_arg7 (by decide)).trans (a7_6 m ρ c)

theorem src_7 : W7 m ρ c (Proc.devRef .tc main_v1) = val_main_v1 (F := Ideal) (m ((c : Thread nD τ).loc main_arg1)) :=
  (W7_of_ne m ρ c main_v1 (by decide)).trans (src_6 m ρ c)

theorem dst_7 : W7 m ρ c (Proc.devRef .tc main_v3) = val_main_v3 (F := Ideal) (m ((c : Thread nD τ).loc main_arg1)) :=
  (W7_of_ne m ρ c main_v3 (by decide)).trans (dst_6 m ρ c)

theorem dinv_7 : W7 m ρ c (Proc.devRef .tc main_v10) = val_main_v10 (F := Ideal) (m ((c : Thread nD τ).loc main_arg1)) :=
  (W7_of_ne m ρ c main_v10 (by decide)).trans (dinv_6 m ρ c)

theorem dcol_7 : W7 m ρ c (Proc.devRef .tc main_v12) = (shapeCast S100000x1 (mulf (F := Ideal) (s := S100000) (φ := .f32) (val_main_v10 (F := Ideal) (m ((c : Thread nD τ).loc main_arg1))) (val_main_v10 (F := Ideal) (m ((c : Thread nD τ).loc main_arg1)))) shapeCasts_S100000_S100000x1 : FVec Ideal S100000x1 .f32) :=
  (W7_arr m ρ c 2).trans (((dat3 (V6 m ρ) c).arrAt_in 2 rfl _).trans
    ((A_eq3 (V6 m ρ) c 2).trans (dcol_6 m ρ c)))

/-- The fourth kernel's output is the reference's second layer. -/
theorem o2_7 : W7 m ρ c (Proc.devRef .tc main_v82) = val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W7_arr m ρ c 8).trans ((Cert.KernelIdeal.Reg3.final (V6 m ρ) c).trans
    (show NodeCombine.nodeBN (W6 m ρ c (Proc.devRef .tc main_v76)) (W6 m ρ c (Proc.devRef .tc main_v48)) (W6 m ρ c (Proc.devRef .tc main_v12))
        (W6 m ρ c (Proc.devRef .tc main_v77)) (W6 m ρ c (Proc.devRef .tc main_v80)) (W6 m ρ c (Proc.devRef .tc main_v81))
        (W6 m ρ c (Proc.devRef .tc main_v78)) (W6 m ρ c (Proc.devRef .tc main_v79)) 0x3727C5AC#32 0x00000000#32 = _ from by
      rw [agg2_6 m ρ c, h2_6 m ρ c, dcol_6 m ρ c, r77_6 m ρ c, r80_6 m ρ c, r81_6 m ρ c, r78_6 m ρ c, r79_6 m ρ c]
      exact (Cert.ReferenceIdeal.Layers.out2 _ _ _ _ _ _ _ _ _ _ _ _ _ _ _ _).symm))

end Cert.Bridge

end
-- ==== Proof.Reg4.lean ====
/-
  Kernel 4 of the program multiplies a block of 2000 consecutive rows of its left matrix by the whole right matrix at each
  of 50 grid points and writes the block of products back. Read here: point t's blocks are rows 2000·t … 2000·t + 1999 of
  the left matrix and the whole right matrix; what it writes back is that block of rows of the plain matrix product; the 50
  blocks fill the output, so after the kernel the output array IS the product of the two arrays as the kernel found them.
-/
import proofs.«103837_j2224793059852_1_alg».proof.Proof.Gen.KernelIdeal.Frame
import proofs.«103837_j2224793059852_1_alg».proof.Proof.LibRowBlocks
import Idealize.ShloMosaic.Lib.Pipeline.Value
import Idealize.ShloMosaic.Lib.ValueIdx

noncomputable section

namespace Cert.KernelIdeal.Reg4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the left matrix's and the output's block index is (t, 0), the right matrix's (0, 0). -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem tlt (t : Fin cfg4.N) : t.val < 50 := lt_of_lt_of_eq t.isLt (N_4 : cfg4.N = 50)

/-- The body's stored value at entry (p, q): the sum over j of x(p, j) · w(j, q). -/
theorem pay_apply (x : Vec Ideal S2000x128 .f32) (w : Vec Ideal S128x64 .f32) (p : Fin 2000) (q : Fin 64) :
    k4_pay1 (F := Ideal) x w (ix2 p q) = ∑ j : Fin 128, x (ix2 p j) * w (ix2 j q) := by
  unfold k4_pay1
  exact RowBlocks.matmul_cast_trunc_apply _ rfl _ _ x w p q

/-- Point t's block of the left matrix is rows 2000·t … of the array. -/
theorem x_blk (c : Dev nD) (t : Fin cfg4.N) (p : Fin 2000) (j : Fin 128) (hr : 2000 * t.val + p.val < 100000) :
    (iblk4 V c 0 t : S2000x128.Idx → EReal) (ix2 p j)
      = (V c main_v82 : S100000x128.Idx → EReal) (ix2 ⟨2000 * t.val + p.val, hr⟩ j) := by
  unfold iblk4
  rw [View.read_apply]
  show V c main_v82 _ = V c main_v82 _
  refine congrArg _ (funext fun a => Fin.ext ?_)
  obtain ⟨e0, e1, -⟩ := idx t
  match a with
  | ⟨0, _⟩ => show win4_0.index t (0 : Fin 2) * 2000 + 1 * p.val = 2000 * t.val + p.val; rw [e0]; omega
  | ⟨1, _⟩ => show win4_0.index t (1 : Fin 2) * 128 + 1 * j.val = j.val; rw [e1]; omega

/-- Point t's block of the right matrix is the whole array. -/
theorem w_blk (c : Dev nD) (t : Fin cfg4.N) (j : Fin 128) (q : Fin 64) :
    (iblk4 V c 1 t : S128x64.Idx → EReal) (ix2 j q) = (V c main_arg6 : S128x64.Idx → EReal) (ix2 j q) := by
  unfold iblk4
  rw [View.read_apply]
  show V c main_arg6 _ = V c main_arg6 _
  refine congrArg _ (funext fun a => Fin.ext ?_)
  obtain ⟨-, -, e2, e3, -⟩ := idx t
  match a with
  | ⟨0, _⟩ => show win4_1.index t (0 : Fin 2) * 128 + 1 * j.val = j.val; rw [e2]; omega
  | ⟨1, _⟩ => show win4_1.index t (1 : Fin 2) * 64 + 1 * q.val = q.val; rw [e3]; omega

/-- What point t writes back is block t of the product of the two arrays. -/
theorem flushed_eq (c : Dev nD) (t : Fin cfg4.N) :
    (dat4 V c).flushed 2 t
      = ((cfg4.win 2).blk t).view.read (Elt Ideal) (RowBlocks.prod (V c main_v82 : S100000x128.Idx → EReal) (V c main_arg6 : S128x64.Idx → EReal)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x64) hz]
  funext y
  obtain ⟨p, q, rfl⟩ : ∃ (p : Fin 2000) (q : Fin 64), y = ix2 p q := ⟨y 0, y 1, eq_ix2 y⟩
  have ht := tlt t
  have hr : 2000 * t.val + p.val < 100000 := by have := p.isLt; omega
  rw [View.read_apply]
  have hemb : ((cfg4.win 2).blk t).view.emb (ix2 p q) = (ix2 ⟨2000 * t.val + p.val, hr⟩ q : S100000x64.Idx) := by
    funext a
    apply Fin.ext
    obtain ⟨-, -, -, -, e4, e5⟩ := idx t
    match a with
    | ⟨0, _⟩ => show win4_2.index t (0 : Fin 2) * 2000 + 1 * p.val = 2000 * t.val + p.val; rw [e4]; omega
    | ⟨1, _⟩ => show win4_2.index t (1 : Fin 2) * 64 + 1 * q.val = q.val; rw [e5]; omega
  rw [hemb]
  refine (pay_apply _ _ p q).trans ?_
  rw [RowBlocks.prod_apply]
  exact Finset.sum_congr rfl fun j _ => by rw [x_blk V c t p j hr, w_blk V c t j q]

/-- Every row of the output lies in the block of the point that is its quotient by 2000. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 50 := N_4
  let t : Fin cfg4.N := ⟨(i 0).val / 2000, by rw [hN]; omega⟩
  refine ⟨t, flush4_2 t, ?_⟩
  show i ∈ ((View.whole main_v83).slice (win4_2.rect t)).set
  rw [View.set_slice_whole, Rect.mem_set_unit]
  obtain ⟨-, -, -, -, e4, e5⟩ := idx t
  intro a
  match a with
  | ⟨0, _⟩ =>
    show win4_2.index t (0 : Fin 2) * 2000 ≤ (i 0).val ∧ (i 0).val < win4_2.index t (0 : Fin 2) * 2000 + 2000
    rw [e4]; show (i 0).val / 2000 * 2000 ≤ (i 0).val ∧ (i 0).val < (i 0).val / 2000 * 2000 + 2000; omega
  | ⟨1, _⟩ =>
    show win4_2.index t (1 : Fin 2) * 64 ≤ (i 1).val ∧ (i 1).val < win4_2.index t (1 : Fin 2) * 64 + 64
    rw [e5]; omega

/-- After the kernel its output array is the product of its two input arrays as it found them. -/
theorem final (c : Dev nD) :
    (dat4 V c).arrAt 2 cfg4.N = RowBlocks.prod (V c main_v82 : S100000x128.Idx → EReal) (V c main_arg6 : S128x64.Idx → EReal) :=
  (dat4 V c).arrAt_eq_of_cover 2 _ (fun t _ => flushed_eq V c t) (cover)

end Cert.KernelIdeal.Reg4

end
-- ==== Proof.Reg5.lean ====
/-
  Kernel 5 of the program updates a block of 2000 consecutive rows at each of 50 grid points: from the block of aggregated
  messages, the block of products, the block of the column of per-row weights and the one parameter row it stores
  max(agg + d·h + b, 0) entry by entry. Read here: point t's blocks are rows 2000·t … of the three tall arrays and the
  whole of each row; what it writes back is that block of rows of the node update of the whole arrays; the 50 blocks fill
  the output, so after the kernel the output array IS the node update of the arrays as the kernel found them.
-/
import proofs.«103837_j2224793059852_1_alg».proof.Proof.Gen.KernelIdeal.Frame
import proofs.«103837_j2224793059852_1_alg».proof.Proof.LibNodeCombine
import Idealize.ShloMosaic.Lib.Pipeline.Value
import Idealize.ShloMosaic.Lib.ValueIdx

noncomputable section

namespace Cert.KernelIdeal.Reg5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three tall inputs and the output are at block (t, 0), every parameter row at (0, 0). -/
theorem idx : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_4.index t (0 : Fin 2) = t.val
    ∧ win5_4.index t (1 : Fin 2) = 0
    ∧ win5_3.index t (0 : Fin 2) = 0
    ∧ win5_3.index t (1 : Fin 2) = 0 :=
  (by decide +kernel : ∀ t : Fin grid5.N, _)

theorem tlt (t : Fin cfg5.N) : t.val < 50 := lt_of_lt_of_eq t.isLt (N_5 : cfg5.N = 50)

/-- The body's stored value at entry (p, q). -/
theorem pay_apply (d : Vec Ideal S2000x1 .f32) (h : Vec Ideal S2000x64 .f32) (b : Vec Ideal S1x64 .f32) (agg : Vec Ideal S2000x64 .f32)
    (p : Fin 2000) (q : Fin 64) :
    k5_pay1 (F := Ideal) d h b agg (ix2 p q)
      = NodeCombine.sumrelu (agg (ix2 p q)) (h (ix2 p q)) (d (ix2 p (0 : Fin 1))) (b (ix2 (0 : Fin 1) q)) 0x00000000#32 := by
  unfold k5_pay1
  exact NodeCombine.block_sum_apply 0x00000000#32 _ _ _ _ _ d h b agg p q

/-- Point t's block of the aggregated messages is rows 2000·t … of the array. -/
theorem agg_blk (c : Dev nD) (t : Fin cfg5.N) (p : Fin 2000) (q : Fin 64) (hr : 2000 * t.val + p.val < 100000) :
    (iblk5 V c 0 t : S2000x64.Idx → EReal) (ix2 p q)
      = (V c main_v111 : S100000x64.Idx → EReal) (ix2 ⟨2000 * t.val + p.val, hr⟩ q) := by
  unfold iblk5
  rw [View.read_apply]
  show V c main_v111 _ = V c main_v111 _
  refine congrArg _ (funext fun a => Fin.ext ?_)
  obtain ⟨ea, eb, -⟩ := idx t
  match a with
  | ⟨0, _⟩ => show win5_0.index t (0 : Fin 2) * 2000 + 1 * p.val = 2000 * t.val + p.val; rw [ea]; omega
  | ⟨1, _⟩ => show win5_0.index t (1 : Fin 2) * 64 + 1 * q.val = q.val; rw [eb]; omega

/-- Point t's block of the products is rows 2000·t … of the array. -/
theorem h_blk (c : Dev nD) (t : Fin cfg5.N) (p : Fin 2000) (q : Fin 64) (hr : 2000 * t.val + p.val < 100000) :
    (iblk5 V c 1 t : S2000x64.Idx → EReal) (ix2 p q)
      = (V c main_v83 : S100000x64.Idx → EReal) (ix2 ⟨2000 * t.val + p.val, hr⟩ q) := by
  unfold iblk5
  rw [View.read_apply]
  show V c main_v83 _ = V c main_v83 _
  refine congrArg _ (funext fun a => Fin.ext ?_)
  obtain ⟨-, -, ea, eb, -⟩ := idx t
  match a with
  | ⟨0, _⟩ => show win5_1.index t (0 : Fin 2) * 2000 + 1 * p.val = 2000 * t.val + p.val; rw [ea]; omega
  | ⟨1, _⟩ => show win5_1.index t (1 : Fin 2) * 64 + 1 * q.val = q.val; rw [eb]; omega

/-- Point t's block of the column of per-row weights is rows 2000·t … of it. -/
theorem d_blk (c : Dev nD) (t : Fin cfg5.N) (p : Fin 2000) (z : Fin 1) (hr : 2000 * t.val + p.val < 100000) :
    (iblk5 V c 2 t : S2000x1.Idx → EReal) (ix2 p z)
      = (V c main_v12 : S100000x1.Idx → EReal) (ix2 ⟨2000 * t.val + p.val, hr⟩ z) := by
  unfold iblk5
  rw [View.read_apply]
  show V c main_v12 _ = V c main_v12 _
  refine congrArg _ (funext fun a => Fin.ext ?_)
  obtain ⟨-, -, -, -, ea, eb, -⟩ := idx t
  match a with
  | ⟨0, _⟩ => show win5_2.index t (0 : Fin 2) * 2000 + 1 * p.val = 2000 * t.val + p.val; rw [ea]; omega
  | ⟨1, _⟩ => show win5_2.index t (1 : Fin 2) * 1 + 1 * z.val = z.val; rw [eb]; omega

/-- Point t's block of parameter row 3 is the whole row. -/
theorem row3_blk (c : Dev nD) (t : Fin cfg5.N) (z : Fin 1) (q : Fin 64) :
    (iblk5 V c 3 t : S1x64.Idx → EReal) (ix2 z q) = (V c main_v112 : S1x64.Idx → EReal) (ix2 z q) := by
  unfold iblk5
  rw [View.read_apply]
  show V c main_v112 _ = V c main_v112 _
  refine congrArg _ (funext fun a => Fin.ext ?_)
  obtain ⟨-, -, -, -, -, -, -, -, ea, eb⟩ := idx t
  match a with
  | ⟨0, _⟩ => show win5_3.index t (0 : Fin 2) * 1 + 1 * z.val = z.val; rw [ea]; omega
  | ⟨1, _⟩ => show win5_3.index t (1 : Fin 2) * 64 + 1 * q.val = q.val; rw [eb]; omega

/-- What point t writes back is block t of the node update of the arrays. -/
theorem flushed_eq (c : Dev nD) (t : Fin cfg5.N) :
    (dat5 V c).flushed 4 t
      = ((cfg5.win 4).blk t).view.read (Elt Ideal) (NodeCombine.nodeSum (V c main_v111 : S100000x64.Idx → EReal) (V c main_v83 : S100000x64.Idx → EReal) (V c main_v12 : S100000x1.Idx → EReal)
        (V c main_v112 : S1x64.Idx → EReal) 0x00000000#32) := by
  show (cfg5.win 4).cut (grid5.coords t) ((dat5 V c).after 4 t) = _
  rw [after5_4]
  unfold out5_4
  rw [View.canon_unit_zero hz]
  simp only [View.ld_unit_zero (S := S2000x64) hz, View.ld_unit_zero (S := S2000x1) hz, View.ld_unit_zero (S := S1x64) hz]
  funext y
  obtain ⟨p, q, rfl⟩ : ∃ (p : Fin 2000) (q : Fin 64), y = ix2 p q := ⟨y 0, y 1, eq_ix2 y⟩
  have ht := tlt t
  have hr : 2000 * t.val + p.val < 100000 := by have := p.isLt; omega
  rw [View.read_apply]
  have hemb : ((cfg5.win 4).blk t).view.emb (ix2 p q) = (ix2 ⟨2000 * t.val + p.val, hr⟩ q : S100000x64.Idx) := by
    funext a
    apply Fin.ext
    obtain ⟨-, -, -, -, -, -, ea, eb, -⟩ := idx t
    match a with
    | ⟨0, _⟩ => show win5_4.index t (0 : Fin 2) * 2000 + 1 * p.val = 2000 * t.val + p.val; rw [ea]; omega
    | ⟨1, _⟩ => show win5_4.index t (1 : Fin 2) * 64 + 1 * q.val = q.val; rw [eb]; omega
  rw [hemb]
  refine (pay_apply _ _ _ _ p q).trans ?_
  rw [NodeCombine.nodeSum_apply]
  rw [agg_blk V c t p q hr, h_blk V c t p q hr, d_blk V c t p 0 hr, row3_blk V c t 0 q]
  rfl

/-- Every row of the output lies in the block of the point that is its quotient by 2000. -/
theorem cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 50 := N_5
  let t : Fin cfg5.N := ⟨(i 0).val / 2000, by rw [hN]; omega⟩
  refine ⟨t, flush5_4 t, ?_⟩
  show i ∈ ((View.whole main_v113).slice (win5_4.rect t)).set
  rw [View.set_slice_whole, Rect.mem_set_unit]
  obtain ⟨-, -, -, -, -, -, ea, eb, -⟩ := idx t
  intro a
  match a with
  | ⟨0, _⟩ =>
    show win5_4.index t (0 : Fin 2) * 2000 ≤ (i 0).val ∧ (i 0).val < win5_4.index t (0 : Fin 2) * 2000 + 2000
    rw [ea]; show (i 0).val / 2000 * 2000 ≤ (i 0).val ∧ (i 0).val < (i 0).val / 2000 * 2000 + 2000; omega
  | ⟨1, _⟩ =>
    show win5_4.index t (1 : Fin 2) * 64 ≤ (i 1).val ∧ (i 1).val < win5_4.index t (1 : Fin 2) * 64 + 64
    rw [eb]; omega

/-- After the kernel its output array is the node update of its input arrays as it found them. -/
theorem final (c : Dev nD) :
    (dat5 V c).arrAt 4 cfg5.N
      = NodeCombine.nodeSum (V c main_v111 : S100000x64.Idx → EReal) (V c main_v83 : S100000x64.Idx → EReal) (V c main_v12 : S100000x1.Idx → EReal)
        (V c main_v112 : S1x64.Idx → EReal) 0x00000000#32 :=
  (dat5 V c).arrAt_eq_of_cover 4 _ (fun t _ => flushed_eq V c t) (cover)

end Cert.KernelIdeal.Reg5

end
-- ==== Proof.KFold4.lean ====
/-
  The kernel program's buffers, boundary by boundary (last part): the third layer. The fifth kernel multiplies the second
  layer's output by W3; the stretch after it passes messages as before and stands the last bias up as a row; the sixth
  kernel leaves max(agg + d²·h + b, 0), which is the reference's result. So the result buffer ends at the reference's last
  stage of the sixteen argument arrays.
-/
import proofs.«103837_j2224793059852_1_alg».proof.Proof.KFold3
import proofs.«103837_j2224793059852_1_alg».proof.Proof.Reg4
import proofs.«103837_j2224793059852_1_alg».proof.Proof.Reg5
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Read (val_main_v1 val_main_v3 val_main_v10 val_main_v11 val_main_v39 val_main_v63 val_main_v64 val_main_v92
  val_main_v116 val_main_v117 val_main_v145 val_main_v154)

variable (m : (ℓ : Loc nD τ sig) → Buf (Elt Ideal) ℓ) (ρ : Dev nD → PrngReg) (c : Dev nD)

/-! ## After the fifth kernel -/

theorem a7_8 : W8 m ρ c (Proc.devRef .tc main_arg7) = m ((c : Thread nD τ).loc main_arg7) :=
  (W8_of_ne m ρ c main_arg7 (by decide)).trans (a7_7 m ρ c)

theorem src_8 : W8 m ρ c (Proc.devRef .tc main_v1) = val_main_v1 (F := Ideal) (m ((c : Thread nD τ).loc main_arg1)) :=
  (W8_of_ne m ρ c main_v1 (by decide)).trans (src_7 m ρ c)

theorem dst_8 : W8 m ρ c (Proc.devRef .tc main_v3) = val_main_v3 (F := Ideal) (m ((c : Thread nD τ).loc main_arg1)) :=
  (W8_of_ne m ρ c main_v3 (by decide)).trans (dst_7 m ρ c)

theorem dinv_8 : W8 m ρ c (Proc.devRef .tc main_v10) = val_main_v10 (F := Ideal) (m ((c : Thread nD τ).loc main_arg1)) :=
  (W8_of_ne m ρ c main_v10 (by decide)).trans (dinv_7 m ρ c)

theorem dcol_8 : W8 m ρ c (Proc.devRef .tc main_v12) = (shapeCast S100000x1 (mulf (F := Ideal) (s := S100000) (φ := .f32) (val_main_v10 (F := Ideal) (m ((c : Thread nD τ).loc main_arg1))) (val_main_v10 (F := Ideal) (m ((c : Thread nD τ).loc main_arg1)))) shapeCasts_S100000_S100000x1 : FVec Ideal S100000x1 .f32) :=
  (W8_of_ne m ρ c main_v12 (by decide)).trans (dcol_7 m ρ c)

/-- The fifth kernel's output is the reference's third product. -/
theorem h3_8 : W8 m ρ c (Proc.devRef .tc main_v83) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W8_arr m ρ c 2).trans ((Cert.KernelIdeal.Reg4.final (V7 m ρ) c).trans
    (show RowBlocks.prod (W7 m ρ c (Proc.devRef .tc main_v82)) (W7 m ρ c (Proc.devRef .tc main_arg6)) = _ from by
      rw [o2_7 m ρ c, a6_7 m ρ c]
      exact (Cert.ReferenceIdeal.Layers.prod3 _ _ _ _ _ _ _ _ _ _ _ _ _ _ _).symm))

/-! ## Before the sixth kernel -/

theorem dcol_9 : W9 m ρ c (Proc.devRef .tc main_v12) = (shapeCast S100000x1 (mulf (F := Ideal) (s := S100000) (φ := .f32) (val_main_v10 (F := Ideal) (m ((c : Thread nD τ).loc main_arg1))) (val_main_v10 (F := Ideal) (m ((c : Thread nD τ).loc main_arg1)))) shapeCasts_S100000_S100000x1 : FVec Ideal S100000x1 .f32) := by
  show StableHlo.after hostOps5 (W8 m ρ c) (Proc.devRef .tc main_v12) = _
  dsimp only [hostOps5]
  after_results_simp
  exact dcol_8 m ρ c

theorem h3_9 : W9 m ρ c (Proc.devRef .tc main_v83) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps5 (W8 m ρ c) (Proc.devRef .tc main_v83) = _
  dsimp only [hostOps5]
  after_results_simp
  exact h3_8 m ρ c

/-- The messages aggregated over the edges: the same gathers, products and accumulating scatter the reference applies to
    the same product, so the reference's stage. -/
theorem agg3_9 : W9 m ρ c (Proc.devRef .tc main_v111) = val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps5 (W8 m ρ c) (Proc.devRef .tc main_v111) = _
  dsimp only [hostOps5]
  after_results_simp
  rw [h3_8 m ρ c, src_8 m ρ c, dst_8 m ρ c, dinv_8 m ρ c]
  rfl

theorem r112_9 : W9 m ρ c (Proc.devRef .tc main_v112) = shapeCast S1x64 (m ((c : Thread nD τ).loc main_arg7)) shapeCasts_S64_S1x64 := by
  show StableHlo.after hostOps5 (W8 m ρ c) (Proc.devRef .tc main_v112) = _
  dsimp only [hostOps5]
  after_results_simp
  rw [a7_8 m ρ c]
  rfl

/-! ## After the sixth kernel -/

/-- The result buffer ends at the reference's result of the argument arrays. -/
theorem result : W10 m ρ c (Proc.devRef .tc main_v113) = val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (W10_arr m ρ c 4).trans ((Cert.KernelIdeal.Reg5.final (V9 m ρ) c).trans
    (show NodeCombine.nodeSum (W9 m ρ c (Proc.devRef .tc main_v111)) (W9 m ρ c (Proc.devRef .tc main_v83)) (W9 m ρ c (Proc.devRef .tc main_v12))
        (W9 m ρ c (Proc.devRef .tc main_v112)) 0x00000000#32 = _ from by
      rw [agg3_9 m ρ c, h3_9 m ρ c, dcol_9 m ρ c, r112_9 m ρ c]
      exact (Cert.ReferenceIdeal.Layers.out3 _ _ _ _ _ _ _ _ _ _ _ _ _ _ _ _ _ _).symm))

end Cert.Bridge

end
-- ==== Proof.lean ====
/-
  A three-layer graph convolution on 100000 nodes and 1600000 edges. With d = rsqrt(in-degree + 1), each layer forms
  h = x·W, aggregates agg(n) = Σ over edges e into n of d(src e)·d(dst e)·h(src e), and updates the nodes to
  agg + d²·h + b; the first two layers then apply batch normalisation ((· − mean)·rsqrt(var + ε)·gamma + beta) and relu,
  the last relu alone.

  The kernel program computes each product and each node update in a row-blocked kernel (2000 rows per grid point, the
  operands rounded to a shorter format on the way into the product) and leaves the gathers and the accumulating scatter to
  whole-array operations; the reference computes everything by whole-array operations. On the extended reals a change of
  format is the identity and a kernel's product into a zero accumulator is the plain matrix product, so the two programs
  apply the same operations in the same order to the same arrays: the kernels' outputs are read as whole-array functions
  of what the kernels found (the blocks of 2000 rows fill the arrays), the message-passing stages in between are the
  reference's own stages of the same operands, and the result buffer ends at the reference's last stage of the sixteen
  argument arrays. No law of arithmetic beyond that is needed, so the precondition is never opened.

  The frames of the two kernel programs are the generated ones; the reference's frame is its generated run with the
  result dropped; no operation was rewritten on the way to the idealized kernel, so that conjunct is trivial.
-/
import proofs.«103837_j2224793059852_1_alg».proof.Defs
import proofs.«103837_j2224793059852_1_alg».proof.Proof.Gen.Kernel
import proofs.«103837_j2224793059852_1_alg».proof.Proof.Gen.Kernel.Skeleton
import proofs.«103837_j2224793059852_1_alg».proof.Proof.Gen.Kernel.Launch
import proofs.«103837_j2224793059852_1_alg».proof.Proof.Gen.Kernel.Points
import proofs.«103837_j2224793059852_1_alg».proof.Proof.Gen.Kernel.Frame
import proofs.«103837_j2224793059852_1_alg».proof.Proof.Gen.KernelIdeal
import proofs.«103837_j2224793059852_1_alg».proof.Proof.Gen.KernelIdeal.Skeleton
import proofs.«103837_j2224793059852_1_alg».proof.Proof.Gen.KernelIdeal.Launch
import proofs.«103837_j2224793059852_1_alg».proof.Proof.Gen.KernelIdeal.Points
import proofs.«103837_j2224793059852_1_alg».proof.Proof.Gen.KernelIdeal.Frame
import proofs.«103837_j2224793059852_1_alg».proof.Proof.Gen.ReferenceIdeal
import proofs.«103837_j2224793059852_1_alg».proof.Proof.Gen.Pre_finite_inputs
import proofs.«103837_j2224793059852_1_alg».proof.Proof.Gen.ReferenceIdeal.Run
import proofs.«103837_j2224793059852_1_alg».proof.Proof.Gen.ReferenceIdeal.Read
import proofs.«103837_j2224793059852_1_alg».proof.Proof.KRun
import proofs.«103837_j2224793059852_1_alg».proof.Proof.KFold4
import Idealize.ShloMosaic.Adequacy
import Idealize.ShloMosaic.Init

noncomputable section

namespace Cert.Proof

open Idealize.ShloMosaic Idealize.SL.Sem

/-- Both programs end with equal results: the kernel program's result buffer ends at the reference's last stage of its own
    argument arrays, the reference's at the same stage of arrays that agree with them. -/
theorem algebraic : Cert.algebraic_KernelIdeal_ReferenceIdeal := by
  intro m ρ m' ρ' _ hagree
  refine ⟨fun c => Cert.ReferenceIdeal.Read.val_main_v154 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c => ⟨(h c).1.trans (Cert.Bridge.result m ρ c), (h c).2⟩)
      (Cert.KernelIdeal.Out.run_out m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v154_eq]
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
